-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4 : Shape := ⟨2, ![4096, 4]⟩
abbrev S4096 : Shape := ⟨1, ![4096]⟩
abbrev S4x100000x64 : Shape := ⟨3, ![4, 100000, 64]⟩
abbrev S100000 : Shape := ⟨1, ![100000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4x100000x64 : S_.BroadcastsInDim S4x100000x64 (![] : Fin 0 → Fin S4x100000x64.rank)
  reducesTo_S4x100000x64_S_d0_1_2 : S4x100000x64.ReducesTo [0, 1, 2] S_
  h_S_ : 0 < S_.numel
  bcast_S_S100000 : S_.BroadcastsInDim S100000 (![] : Fin 0 → Fin S100000.rank)
  reducesTo_S100000_S_d0 : S100000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg10 : FVec F S256x256 .f32) (main_arg11 : FVec F S256 .f32) (main_arg12 : FVec F S256x128 .f32) (main_arg13 : FVec F S128 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg12
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg7 : FVec F S256 .f32) (main_arg8 : FVec F S256x128 .f32) (main_arg9 : FVec F S128 .f32) (main_arg10 : FVec F S256x256 .f32) (main_arg11 : FVec F S256 .f32) (main_arg12 : FVec F S256x128 .f32) (main_arg13 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg8
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : IVec S4096x4 32) (main_arg1 : IVec S4096x4 32) (main_arg2 : IVec S4096 32) (main_arg3 : FVec F S4x100000x64 .f32) (main_arg4 : FVec F S4x100000x64 .f32) (main_arg5 : FVec F S100000 .f32) (main_arg6 : FVec F S256x256 .f32) (main_arg7 : FVec F S256 .f32) (main_arg8 : FVec F S256x128 .f32) (main_arg9 : FVec F S128 .f32) (main_arg10 : FVec F S256x256 .f32) (main_arg11 : FVec F S256 .f32) (main_arg12 : FVec F S256x128 .f32) (main_arg13 : FVec F S128 .f32) : IVec S_ 1 :=
  let main_v0 : FVec F S4x100000x64 .f32 := Host.absf main_arg3
  let main_cst : FVec F S_ .f32 := constant S_ .f32 0x7F800000#32
  let main_v1 : FVec F S4x100000x64 .f32 := broadcastInDim S4x100000x64 ![] bcast_S_S4x100000x64 main_cst
  let main_v2 : IVec S4x100000x64 1 := cmpf .olt main_v0 main_v1
  let main_c : IVec S_ 1 := constantI S_ 1 1#1
  let main_v3 : IVec S_ 1 := (fun x v => Host.reduce IntOp.andi x v reducesTo_S4x100000x64_S_d0_1_2 h_S_) main_v2 main_c
  let main_v4 : FVec F S4x100000x64 .f32 := Host.absf main_arg4
  let main_cst_0 : FVec F S_ .f32 := constant S_ .f32 0x7F800000#32
  let main_v5 : FVec F S4x100000x64 .f32 := broadcastInDim S4x100000x64 ![] bcast_S_S4x100000x64 main_cst_0
  let main_v6 : IVec S4x100000x64 1 := cmpf .olt main_v4 main_v5
  let main_c_1 : IVec S_ 1 := constantI S_ 1 1#1
  let main_v7 : IVec S_ 1 := (fun x v => Host.reduce IntOp.andi x v reducesTo_S4x100000x64_S_d0_1_2 h_S_) main_v6 main_c_1
  let main_v8 : IVec S_ 1 := andi main_v3 main_v7
  let main_v9 : FVec F S100000 .f32 := Host.absf main_arg5
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_arg9 main_arg10 main_arg11 main_arg12 main_arg13 main_v13 main_v16
-- ==== Kernel.lean ====
abbrev S4096x4 : Shape := ⟨2, ![4096, 4]⟩
abbrev S4096 : Shape := ⟨1, ![4096]⟩
abbrev S4x100000x64 : Shape := ⟨3, ![4, 100000, 64]⟩
abbrev S100000 : Shape := ⟨1, ![100000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S4x4096x64 : Shape := ⟨3, ![4, 4096, 64]⟩
abbrev S4096x4x64 : Shape := ⟨3, ![4096, 4, 64]⟩
abbrev S4096x256 : Shape := ⟨2, ![4096, 256]⟩
abbrev S4096x128 : Shape := ⟨2, ![4096, 128]⟩
abbrev S1024x256 : Shape := ⟨2, ![1024, 256]⟩
abbrev S1024x128 : Shape := ⟨2, ![1024, 128]⟩
abbrev S1x256 : Shape := ⟨2, ![1, 256]⟩
abbrev S1x128 : Shape := ⟨2, ![1, 128]⟩
abbrev S1024 : Shape := ⟨1, ![1024]⟩
abbrev S1024x1 : Shape := ⟨2, ![1024, 1]⟩
abbrev S4096x1 : Shape := ⟨2, ![4096, 1]⟩
abbrev S1x4096 : Shape := ⟨2, ![1, 4096]⟩
abbrev S4096x4096 : Shape := ⟨2, ![4096, 4096]⟩
abbrev S1x1024 : Shape := ⟨2, ![1, 1024]⟩
abbrev S1024x1024 : Shape := ⟨2, ![1024, 1024]⟩
abbrev S16384 : Shape := ⟨1, ![16384]⟩
abbrev S4 : Shape := ⟨1, ![4]⟩
abbrev S1x4 : Shape := ⟨2, ![1, 4]⟩
abbrev S16384x1 : Shape := ⟨2, ![16384, 1]⟩
abbrev S16384x2 : Shape := ⟨2, ![16384, 2]⟩

abbrev nBuf : Space → Nat
  | .hbm => 104
  | .vmem => 24
  | .smem => 0
  | _ => 0

abbrev bufTy : (tb : Table) → Fin (tcTables nBuf tb) → BufTy
  | .hbm, ⟨0, _⟩ => ⟨S4096x4, .i32⟩
  | .hbm, ⟨1, _⟩ => ⟨S4096x4, .i32⟩
  | .hbm, ⟨2, _⟩ => ⟨S4096, .i32⟩
  | .hbm, ⟨3, _⟩ => ⟨S4x100000x64, .f32⟩
  | .hbm, ⟨4, _⟩ => ⟨S4x100000x64, .f32⟩
  | .hbm, ⟨5, _⟩ => ⟨S100000, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S256x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S_, .i32⟩
  | .hbm, ⟨15, _⟩ => ⟨S4096x4, .i32⟩
  | .hbm, ⟨16, _⟩ => ⟨S4096x4, .i1⟩
  | .hbm, ⟨17, _⟩ => ⟨S_, .i32⟩
  | .hbm, ⟨18, _⟩ => ⟨S4096x4, .i32⟩
  | .hbm, ⟨19, _⟩ => ⟨S4096x4, .i32⟩
  | .hbm, ⟨20, _⟩ => ⟨S4096x4, .i32⟩
  | .hbm, ⟨21, _⟩ => ⟨S4x4096, .i32⟩
  | .hbm, ⟨22, _⟩ => ⟨S4x4096x1, .i32⟩
  | .hbm, ⟨23, _⟩ => ⟨S4x4096x64, .f32⟩
  | .hbm, ⟨24, _⟩ => ⟨S4096x4x64, .f32⟩
  | .hbm, ⟨25, _⟩ => ⟨S4096x256, .f32⟩
  | .hbm, ⟨26, _⟩ => ⟨S_, .i32⟩
  | .hbm, ⟨27, _⟩ => ⟨S4096x4, .i32⟩
  | .hbm, ⟨28, _⟩ => ⟨S4096x4, .i1⟩
  | .hbm, ⟨29, _⟩ => ⟨S_, .i32⟩
  | .hbm, ⟨30, _⟩ => ⟨S4096x4, .i32⟩
  | .hbm, ⟨31, _⟩ => ⟨S4096x4, .i32⟩
  | .hbm, ⟨32, _⟩ => ⟨S4096x4, .i32⟩
  | .hbm, ⟨33, _⟩ => ⟨S4x4096, .i32⟩
  | .hbm, ⟨34, _⟩ => ⟨S4x4096x1, .i32⟩
  | .hbm, ⟨35, _⟩ => ⟨S4x4096x64, .f32⟩
  | .hbm, ⟨36, _⟩ => ⟨S4096x4x64, .f32⟩
  | .hbm, ⟨37, _⟩ => ⟨S4096x256, .f32⟩
  | .hbm, ⟨38, _⟩ => ⟨S4096x128, .f32⟩
  | .hbm, ⟨39, _⟩ => ⟨S4096x128, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096, .f32⟩
  | .hbm, ⟨49, _⟩ => ⟨S4096, .f32⟩
  | .hbm, ⟨50, _⟩ => ⟨S1x4096, .f32⟩
  | .hbm, ⟨51, _⟩ => ⟨S4096x4096, .f32⟩
  | .hbm, ⟨52, _⟩ => ⟨S4096, .i32⟩
  | .hbm, ⟨53, _⟩ => ⟨S4096x4, .i32⟩
  | .hbm, ⟨54, _⟩ => ⟨S16384, .i32⟩
  | .hbm, ⟨55, _⟩ => ⟨S4096, .i32⟩
  | .hbm, ⟨56, _⟩ => ⟨S4096x1, .i32⟩
  | .hbm, ⟨57, _⟩ => ⟨S4, .i32⟩
  | .hbm, ⟨58, _⟩ => ⟨S1x4, .i32⟩
  | .hbm, ⟨59, _⟩ => ⟨S4096x4, .i32⟩
  | .hbm, ⟨60, _⟩ => ⟨S4096x4, .i32⟩
  | .hbm, ⟨61, _⟩ => ⟨S4096x4, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S4096x4, .i32⟩
  | .hbm, ⟨69, _⟩ => ⟨S4096x4, .i32⟩
  | .hbm, ⟨70, _⟩ => ⟨S_, .i32⟩
  | .hbm, ⟨71, _⟩ => ⟨S4096x4, .i32⟩
  | .hbm, ⟨72, _⟩ => ⟨S4096x4, .i1⟩
  | .hbm, ⟨73, _⟩ => ⟨S_, .i32⟩
  | .hbm, ⟨74, _⟩ => ⟨S4096x4, .i32⟩
  | .hbm, ⟨75, _⟩ => ⟨S4096x4, .i1⟩
  | .hbm, ⟨76, _⟩ => ⟨S_, .i32⟩
  | .hbm, ⟨77, _⟩ => ⟨S_, .i1⟩
  | .hbm, ⟨78, _⟩ => ⟨S4096x4, .i1⟩
  | .hbm, ⟨79, _⟩ => ⟨S4096x4, .i1⟩
  | .hbm, ⟨80, _⟩ => ⟨S4096x4, .i1⟩
  | .hbm, ⟨81, _⟩ => ⟨S4096x4, .i32⟩
  | .hbm, ⟨82, _⟩ => ⟨S4096x4, .i32⟩
  | .hbm, ⟨83, _⟩ => ⟨S4096x4, .i32⟩
  | .hbm, ⟨84, _⟩ => ⟨S16384, .i32⟩
  | .hbm, ⟨85, _⟩ => ⟨S_, .i32⟩
  | .hbm, ⟨86, _⟩ => ⟨S16384, .i32⟩
  | .hbm, ⟨87, _⟩ => ⟨S16384, .i1⟩
  | .hbm, ⟨88, _⟩ => ⟨S_, .i32⟩
  | .hbm, ⟨89, _⟩ => ⟨S16384, .i32⟩
  | .hbm, ⟨90, _⟩ => ⟨S16384, .i32⟩
  | .hbm, ⟨91, _⟩ => ⟨S16384, .i32⟩
  | .hbm, ⟨92, _⟩ => ⟨S_, .i32⟩
  | .hbm, ⟨93, _⟩ => ⟨S16384, .i32⟩
  | .hbm, ⟨94, _⟩ => ⟨S16384, .i1⟩
  | .hbm, ⟨95, _⟩ => ⟨S_, .i32⟩
  | .hbm, ⟨96, _⟩ => ⟨S16384, .i32⟩
  | .hbm, ⟨97, _⟩ => ⟨S16384, .i32⟩
  | .hbm, ⟨98, _⟩ => ⟨S16384, .i32⟩
  | .hbm, ⟨99, _⟩ => ⟨S16384x1, .i32⟩
  | .hbm, ⟨100, _⟩ => ⟨S16384x1, .i32⟩
  | .hbm, ⟨101, _⟩ => ⟨S16384x2, .i32⟩
  | .hbm, ⟨102, _⟩ => ⟨S16384, .f32⟩
  | .hbm, ⟨103, _⟩ => ⟨S4096x4, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S1024x128, .f32⟩
  | .local _ .vmem, ⟨7, _⟩ => ⟨S1024x128, .f32⟩
  | .local _ .vmem, ⟨8, _⟩ => ⟨S1024x256, .f32⟩
  | .local _ .vmem, ⟨9, _⟩ => ⟨S1024x256, .f32⟩
  | .local _ .vmem, ⟨10, _⟩ => ⟨S256x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1024, .f32⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | _, _ => ⟨S4096x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_c_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_1 : Ref sig .tc := ⟨.hbm, 70, rfl⟩
abbrev main_call0_v5 : Ref sig .tc := ⟨.hbm, 71, rfl⟩
abbrev main_call0_v6 : Ref sig .tc := ⟨.hbm, 72, rfl⟩
abbrev main_call0_c_2 : Ref sig .tc := ⟨.hbm, 73, rfl⟩
abbrev main_call0_v7 : Ref sig .tc := ⟨.hbm, 74, rfl⟩
abbrev main_call0_v8 : Ref sig .tc := ⟨.hbm, 75, rfl⟩
abbrev main_call0_c_3 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_v12 : Ref sig .tc := ⟨.hbm, 80, rfl⟩
abbrev main_call0_v13 : Ref sig .tc := ⟨.hbm, 81, rfl⟩
abbrev main_call0_v14 : Ref sig .tc := ⟨.hbm, 82, rfl⟩
abbrev main_v42 : Ref sig .tc := ⟨.hbm, 83, rfl⟩
abbrev main_v43 : Ref sig .tc := ⟨.hbm, 84, rfl⟩
abbrev main_c_6 : Ref sig .tc := ⟨.hbm, 85, rfl⟩
abbrev main_v44 : Ref sig .tc := ⟨.hbm, 86, rfl⟩
abbrev main_v45 : Ref sig .tc := ⟨.hbm, 87, rfl⟩
abbrev main_c_7 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_8 : Ref sig .tc := ⟨.hbm, 92, rfl⟩
abbrev main_v49 : Ref sig .tc := ⟨.hbm, 93, rfl⟩
abbrev main_v50 : Ref sig .tc := ⟨.hbm, 94, rfl⟩
abbrev main_c_9 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bcast_S_S4096x4 : S_.BroadcastsInDim S4096x4 (![] : Fin 0 → Fin S4096x4.rank)
  transposes_S4096x4_S4x4096_1_0 : S4096x4.Transposes [1, 0] S4x4096
  bcast_S4x4096_S4x4096x1_0_1 : S4x4096.BroadcastsInDim S4x4096x1 (![0, 1] : Fin 2 → Fin S4x4096x1.rank)
  transposes_S4x4096x64_S4096x4x64_1_0_2 : S4x4096x64.Transposes [1, 0, 2] S4096x4x64
  shapeCasts_S4096x4x64_S4096x256 : S4096x4x64.ShapeCasts S4096x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S1x4096 : S4096.ShapeCasts S1x4096
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  bcast_S4096_S4096x4_0 : S4096.BroadcastsInDim S4096x4 (![0] : Fin 1 → Fin S4096x4.rank)
  shapeCasts_S4096x4_S16384 : S4096x4.ShapeCasts S16384
  bcast_S4_S1x4_1 : S4.BroadcastsInDim S1x4 (![1] : Fin 1 → Fin S1x4.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  shapeCasts_S16384_S4096x4 : S16384.ShapeCasts S4096x4
  gather_S4x100000x64_S4x4096x1_S4x4096x64_2_1_0_0_1_2_1164_wf : GatherDims.WF S4x100000x64 S4x4096x1 S4x4096x64 [2] [1] [0] [1] [0] 2 ![1, 1, 64]
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  gather_S100000_S4096x1_S4096_n_0_n_n_0_1_1_wf : GatherDims.WF S100000 S4096x1 S4096 [] [0] [] [0] [] 1 ![1]
  dot_S1024x128_S1024x128_S1024x1024_1_1_0_0_n_n_wf : DotDims.WF S1024x128 S1024x128 S1024x1024 [1] [1] [0] [0] [] []
  gather_S4096x4096_S16384x2_S16384_n_01_n_n_01_1_11_wf : GatherDims.WF S4096x4096 S16384x2 S16384 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S4096x128.size a
  hwx0_5 : ∀ i : grid0.Coords, EltTy.bits .f32 = 32 ∨ (Rect.block (s := S4096x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S4096x128.size a
  hwx1_5 : ∀ i : grid1.Coords, EltTy.bits .f32 = 32 ∨ (Rect.block (s := S4096x128) S1024x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x128.size a
  hwx2_0 : ∀ i : grid2.Coords, EltTy.bits .f32 = 32 ∨ (Rect.block (s := S4096x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S4096x128.size a
  hwx2_1 : ∀ i : grid2.Coords, EltTy.bits .f32 = 32 ∨ (Rect.block (s := S4096x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)

variable [Facts₀]

def gather_S4x100000x64_S4x4096x1_S4x4096x64_2_1_0_0_1_2_1164 : GatherDims S4x100000x64 S4x4096x1 S4x4096x64 where
  offsetDims := [2]
  collapsedSliceDims := [1]
  operandBatchingDims := [0]
  startIndicesBatchingDims := [0]
  startIndexMap := [1]
  indexVectorDim := 2
  sliceSizes := ![1, 1, 64]
  wf := gather_S4x100000x64_S4x4096x1_S4x4096x64_2_1_0_0_1_2_1164_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def gather_S4096x4096_S16384x2_S16384_n_01_n_n_01_1_11 : GatherDims S4096x4096 S16384x2 S16384 where
  offsetDims := []
  collapsedSliceDims := [0, 1]
  operandBatchingDims := []
  startIndicesBatchingDims := []
  startIndexMap := [0, 1]
  indexVectorDim := 1
  sliceSizes := ![1, 1]
  wf := gather_S4096x4096_S16384x2_S16384_n_01_n_n_01_1_11_wf

abbrev win0_0 : Pipeline.Window sig grid0 :=
  Pipeline.Window.ofSpec (Memref.whole main_v9) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x4 : Shape := ⟨2, ![4096, 4]⟩
abbrev S4096 : Shape := ⟨1, ![4096]⟩
abbrev S4x100000x64 : Shape := ⟨3, ![4, 100000, 64]⟩
abbrev S100000 : Shape := ⟨1, ![100000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S4x4096x64 : Shape := ⟨3, ![4, 4096, 64]⟩
abbrev S4096x4x64 : Shape := ⟨3, ![4096, 4, 64]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩
abbrev S4096x1 : Shape := ⟨2, ![4096, 1]⟩
abbrev S128x4096 : Shape := ⟨2, ![128, 4096]⟩
abbrev S4096x4096 : Shape := ⟨2, ![4096, 4096]⟩
abbrev S1x4096 : Shape := ⟨2, ![1, 4096]⟩
abbrev S16384 : Shape := ⟨1, ![16384]⟩
abbrev S4 : Shape := ⟨1, ![4]⟩
abbrev S1x4 : Shape := ⟨2, ![1, 4]⟩
abbrev S16384x1 : Shape := ⟨2, ![16384, 1]⟩
abbrev S16384x2 : Shape := ⟨2, ![16384, 2]⟩

abbrev nBuf : Space → Nat
  | .hbm => 156
  | .vmem => 0
  | .smem => 0
  | _ => 0

abbrev hbmTy0_0 (i : Nat) : BufTy := match i % 128 with
  | 0 => ⟨S4096x4, .i32⟩
  | 1 => ⟨S4096x4, .i32⟩
  | 2 => ⟨S4096, .i32⟩
  | 3 => ⟨S4x100000x64, .f32⟩
  | 4 => ⟨S4x100000x64, .f32⟩
  | 5 => ⟨S100000, .f32⟩
  | 6 => ⟨S256x256, .f32⟩
  | 7 => ⟨S256, .f32⟩
  | 8 => ⟨S256x128, .f32⟩
  | 9 => ⟨S128, .f32⟩
  | 10 => ⟨S256x256, .f32⟩
  | 11 => ⟨S256, .f32⟩
  | 12 => ⟨S256x128, .f32⟩
  | 13 => ⟨S128, .f32⟩
  | 14 => ⟨S_, .i32⟩
  | 15 => ⟨S4096x4, .i32⟩
  | 16 => ⟨S4096x4, .i1⟩
  | 17 => ⟨S_, .i32⟩
  | 18 => ⟨S4096x4, .i32⟩
  | 19 => ⟨S4096x4, .i32⟩
  | 20 => ⟨S4096x4, .i32⟩
  | 21 => ⟨S4x4096, .i32⟩
  | 22 => ⟨S4x4096x1, .i32⟩
  | 23 => ⟨S4x4096x64, .f32⟩
  | 24 => ⟨S4096x4x64, .f32⟩
  | 25 => ⟨S4096x256, .f32⟩
  | 26 => ⟨S4096x256, .f32⟩
  | 27 => ⟨S1x256, .f32⟩
  | 28 => ⟨S4096x256, .f32⟩
  | 29 => ⟨S4096x256, .f32⟩
  | 30 => ⟨S_, .f32⟩
  | 31 => ⟨S4096x256, .f32⟩
  | 32 => ⟨S4096x256, .f32⟩
  | 33 => ⟨S4096x128, .f32⟩
  | 34 => ⟨S1x128, .f32⟩
  | 35 => ⟨S4096x128, .f32⟩
  | 36 => ⟨S4096x128, .f32⟩
  | 37 => ⟨S_, .f32⟩
  | 38 => ⟨S4096x128, .f32⟩
  | 39 => ⟨S4096x128, .f32⟩
  | 40 => ⟨S_, .i32⟩
  | 41 => ⟨S4096x4, .i32⟩
  | 42 => ⟨S4096x4, .i1⟩
  | 43 => ⟨S_, .i32⟩
  | 44 => ⟨S4096x4, .i32⟩
  | 45 => ⟨S4096x4, .i32⟩
  | 46 => ⟨S4096x4, .i32⟩
  | 47 => ⟨S4x4096, .i32⟩
  | 48 => ⟨S4x4096x1, .i32⟩
  | 49 => ⟨S4x4096x64, .f32⟩
  | 50 => ⟨S4096x4x64, .f32⟩
  | 51 => ⟨S4096x256, .f32⟩
  | 52 => ⟨S4096x256, .f32⟩
  | 53 => ⟨S1x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S4096x128, .f32⟩
  | 60 => ⟨S1x128, .f32⟩
  | 61 => ⟨S4096x128, .f32⟩
  | 62 => ⟨S4096x128, .f32⟩
  | 63 => ⟨S_, .f32⟩
  | 64 => ⟨S4096x128, .f32⟩
  | 65 => ⟨S4096x128, .f32⟩
  | 66 => ⟨S4096x128, .f32⟩
  | 67 => ⟨S_, .f32⟩
  | 68 => ⟨S4096, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x128, .f32⟩
  | 75 => ⟨S4096x128, .f32⟩
  | 76 => ⟨S4096x128, .f32⟩
  | 77 => ⟨S_, .f32⟩
  | 78 => ⟨S4096, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x128, .f32⟩
  | 85 => ⟨S4096x128, .f32⟩
  | 86 => ⟨S128x4096, .f32⟩
  | 87 => ⟨S4096x4096, .f32⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S4096, .f32⟩
  | 97 => ⟨S4096, .f32⟩
  | 98 => ⟨S1x4096, .f32⟩
  | 99 => ⟨S4096x4096, .f32⟩
  | 100 => ⟨S4096x4096, .f32⟩
  | 101 => ⟨S4096, .i32⟩
  | 102 => ⟨S4096x4, .i32⟩
  | 103 => ⟨S16384, .i32⟩
  | 104 => ⟨S4096, .i32⟩
  | 105 => ⟨S4096x1, .i32⟩
  | 106 => ⟨S4, .i32⟩
  | 107 => ⟨S1x4, .i32⟩
  | 108 => ⟨S4096x4, .i32⟩
  | 109 => ⟨S4096x4, .i32⟩
  | 110 => ⟨S4096x4, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S4096x4, .i32⟩
  | 118 => ⟨S4096x4, .i32⟩
  | 119 => ⟨S_, .i32⟩
  | 120 => ⟨S4096x4, .i32⟩
  | 121 => ⟨S4096x4, .i1⟩
  | 122 => ⟨S_, .i32⟩
  | 123 => ⟨S4096x4, .i32⟩
  | 124 => ⟨S4096x4, .i1⟩
  | 125 => ⟨S_, .i32⟩
  | 126 => ⟨S_, .i1⟩
  | 127 => ⟨S4096x4, .i1⟩
  | _ => ⟨S4096x4, .i32⟩

abbrev hbmTy0_1 (i : Nat) : BufTy := match i % 128 with
  | 0 => ⟨S4096x4, .i1⟩
  | 1 => ⟨S4096x4, .i1⟩
  | 2 => ⟨S4096x4, .i32⟩
  | 3 => ⟨S4096x4, .i32⟩
  | 4 => ⟨S4096x4, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S16384x1, .i32⟩
  | 22 => ⟨S16384x2, .i32⟩
  | 23 => ⟨S16384, .f32⟩
  | 24 => ⟨S_, .f32⟩
  | 25 => ⟨S16384, .f32⟩
  | 26 => ⟨S16384, .f32⟩
  | 27 => ⟨S4096x4, .f32⟩
  | _ => ⟨S4096x4, .i32⟩

abbrev hbmTy (i : Nat) : BufTy := match i / 128 with
  | 0 => hbmTy0_0 i
  | 1 => hbmTy0_1 i
  | _ => ⟨S4096x4, .i32⟩

abbrev bufTy : (tb : Table) → Fin (tcTables nBuf tb) → BufTy
  | .hbm, ⟨i, _⟩ => hbmTy i
  | _, _ => ⟨S4096x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_cst : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_cst : Ref sig .tc := ⟨.hbm, 37, rfl⟩
abbrev main_call1_v0 : Ref sig .tc := ⟨.hbm, 38, rfl⟩
abbrev main_v19 : Ref sig .tc := ⟨.hbm, 39, rfl⟩
abbrev main_c_1 : Ref sig .tc := ⟨.hbm, 40, rfl⟩
abbrev main_v20 : Ref sig .tc := ⟨.hbm, 41, rfl⟩
abbrev main_v21 : Ref sig .tc := ⟨.hbm, 42, rfl⟩
abbrev main_c_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call2_cst : Ref sig .tc := ⟨.hbm, 56, rfl⟩
abbrev main_call2_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call3_cst : Ref sig .tc := ⟨.hbm, 63, rfl⟩
abbrev main_call3_v0 : Ref sig .tc := ⟨.hbm, 64, rfl⟩
abbrev main_v39 : Ref sig .tc := ⟨.hbm, 65, rfl⟩
abbrev main_call4_v0 : Ref sig .tc := ⟨.hbm, 66, rfl⟩
abbrev main_call4_cst : Ref sig .tc := ⟨.hbm, 67, rfl⟩
abbrev main_call4_v1 : Ref sig .tc := ⟨.hbm, 68, rfl⟩
abbrev main_call4_v2 : Ref sig .tc := ⟨.hbm, 69, rfl⟩
abbrev main_v40 : Ref sig .tc := ⟨.hbm, 70, rfl⟩
abbrev main_cst : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call5_v0 : Ref sig .tc := ⟨.hbm, 76, rfl⟩
abbrev main_call5_cst : Ref sig .tc := ⟨.hbm, 77, rfl⟩
abbrev main_call5_v1 : Ref sig .tc := ⟨.hbm, 78, rfl⟩
abbrev main_call5_v2 : Ref sig .tc := ⟨.hbm, 79, rfl⟩
abbrev main_v45 : Ref sig .tc := ⟨.hbm, 80, rfl⟩
abbrev main_cst_3 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_4 : Ref sig .tc := ⟨.hbm, 88, rfl⟩
abbrev main_v52 : Ref sig .tc := ⟨.hbm, 89, rfl⟩
abbrev main_v53 : Ref sig .tc := ⟨.hbm, 90, rfl⟩
abbrev main_c_5 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_6 : Ref sig .tc := ⟨.hbm, 111, rfl⟩
abbrev main_call6_v0 : Ref sig .tc := ⟨.hbm, 112, rfl⟩
abbrev main_call6_c : Ref sig .tc := ⟨.hbm, 113, rfl⟩
abbrev main_call6_v1 : Ref sig .tc := ⟨.hbm, 114, rfl⟩
abbrev main_call6_c_0 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_c_1 : Ref sig .tc := ⟨.hbm, 119, rfl⟩
abbrev main_call6_v5 : Ref sig .tc := ⟨.hbm, 120, rfl⟩
abbrev main_call6_v6 : Ref sig .tc := ⟨.hbm, 121, rfl⟩
abbrev main_call6_c_2 : Ref sig .tc := ⟨.hbm, 122, rfl⟩
abbrev main_call6_v7 : Ref sig .tc := ⟨.hbm, 123, rfl⟩
abbrev main_call6_v8 : Ref sig .tc := ⟨.hbm, 124, rfl⟩
abbrev main_call6_c_3 : Ref sig .tc := ⟨.hbm, 125, rfl⟩
abbrev main_call6_v9 : Ref sig .tc := ⟨.hbm, 126, rfl⟩
abbrev main_call6_v10 : Ref sig .tc := ⟨.hbm, 127, rfl⟩
abbrev main_call6_v11 : Ref sig .tc := ⟨.hbm, 128, rfl⟩
abbrev main_call6_v12 : Ref sig .tc := ⟨.hbm, 129, rfl⟩
abbrev main_call6_v13 : Ref sig .tc := ⟨.hbm, 130, rfl⟩
abbrev main_call6_v14 : Ref sig .tc := ⟨.hbm, 131, rfl⟩
abbrev main_v73 : Ref sig .tc := ⟨.hbm, 132, rfl⟩
abbrev main_v74 : Ref sig .tc := ⟨.hbm, 133, rfl⟩
abbrev main_c_7 : Ref sig .tc := ⟨.hbm, 134, rfl⟩
abbrev main_v75 : Ref sig .tc := ⟨.hbm, 135, rfl⟩
abbrev main_v76 : Ref sig .tc := ⟨.hbm, 136, rfl⟩
abbrev main_c_8 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_c_9 : Ref sig .tc := ⟨.hbm, 141, rfl⟩
abbrev main_v80 : Ref sig .tc := ⟨.hbm, 142, rfl⟩
abbrev main_v81 : Ref sig .tc := ⟨.hbm, 143, rfl⟩
abbrev main_c_10 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_cst_11 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩

abbrev nD : Nat := 1
abbrev τ : Topo := Topo.v7x

variable {F : FTy → Type} [FloatOps F]

class Facts₀ : Prop where
  bcast_S_S4096x4 : S_.BroadcastsInDim S4096x4 (![] : Fin 0 → Fin S4096x4.rank)
  transposes_S4096x4_S4x4096_1_0 : S4096x4.Transposes [1, 0] S4x4096
  bcast_S4x4096_S4x4096x1_0_1 : S4x4096.BroadcastsInDim S4x4096x1 (![0, 1] : Fin 2 → Fin S4x4096x1.rank)
  transposes_S4x4096x64_S4096x4x64_1_0_2 : S4x4096x64.Transposes [1, 0, 2] S4096x4x64
  shapeCasts_S4096x4x64_S4096x256 : S4096x4x64.ShapeCasts S4096x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  transposes_S4096x128_S128x4096_1_0 : S4096x128.Transposes [1, 0] S128x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S4096x4_0 : S4096.BroadcastsInDim S4096x4 (![0] : Fin 1 → Fin S4096x4.rank)
  shapeCasts_S4096x4_S16384 : S4096x4.ShapeCasts S16384
  bcast_S4_S1x4_1 : S4.BroadcastsInDim S1x4 (![1] : Fin 1 → Fin S1x4.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  shapeCasts_S16384_S4096x4 : S16384.ShapeCasts S4096x4
  gather_S4x100000x64_S4x4096x1_S4x4096x64_2_1_0_0_1_2_1164_wf : GatherDims.WF S4x100000x64 S4x4096x1 S4x4096x64 [2] [1] [0] [1] [0] 2 ![1, 1, 64]
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S4096x128_S128x4096_S4096x4096_1_0_0_1_n_n_wf : DotDims.WF S4096x128 S128x4096 S4096x4096 [1] [0] [0] [1] [] []
  gather_S100000_S4096x1_S4096_n_0_n_n_0_1_1_wf : GatherDims.WF S100000 S4096x1 S4096 [] [0] [] [0] [] 1 ![1]
  gather_S4096x4096_S16384x2_S16384_n_01_n_n_01_1_11_wf : GatherDims.WF S4096x4096 S16384x2 S16384 [] [0, 1] [] [0, 1] [] 1 ![1, 1]

variable [Facts₀]

def gather_S4x100000x64_S4x4096x1_S4x4096x64_2_1_0_0_1_2_1164 : GatherDims S4x100000x64 S4x4096x1 S4x4096x64 where
  offsetDims := [2]
  collapsedSliceDims := [1]
  operandBatchingDims := [0]
  startIndicesBatchingDims := [0]
  startIndexMap := [1]
  indexVectorDim := 2
  sliceSizes := ![1, 1, 64]
  wf := gather_S4x100000x64_S4x4096x1_S4x4096x64_2_1_0_0_1_2_1164_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf
def gather_S4096x4096_S16384x2_S16384_n_01_n_n_01_1_11 : GatherDims S4096x4096 S16384x2 S16384 where
  offsetDims := []
  collapsedSliceDims := [0, 1]
  operandBatchingDims := []
  startIndicesBatchingDims := []
  startIndexMap := [0, 1]
  indexVectorDim := 1
  sliceSizes := ![1, 1]
  wf := gather_S4096x4096_S16384x2_S16384_n_01_n_n_01_1_11_wf

class Facts : Prop extends Facts₀ where

variable [Facts]
-- ==== Proof.KernelRun.lean ====
/-
  The idealized kernel program's run with its RESULT named.  @main is three grid launches among stretches of host
  operations; the buffer contents at the return are the fold `Gen.W8` of those segments over the launch memory.
  Every weakly fair execution terminates, nothing faulting, with the result array `main_v58` holding what that fold
  leaves there and every argument array as launched.
-/
import proofs.«132451_j36069135352387_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The launch over @main's eight segments, the last thread state read against the final state: the result buffer
    is among the unscoped buffers, so it ends at the last boundary's contents; each argument is read back through
    the fold to its launch contents. -/
theorem run_result : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.RunValue

end
-- ==== Proof.LibAfterResultsCat.lean ====
/-
  Evaluating a straight-line host program's operations past a concatenation.

  What a buffer holds after a list of host operations is a fold; the library evaluates it in one rewriting pass, operation by operation.
  A concatenation takes its operands as a LIST of (shape, vector) pairs, and the pass does not rewrite under such pairs: whatever is
  looked up inside them stays a fold over all the earlier operations. Stated as ordinary functions of two or three vectors, a
  concatenation's operands are rewritten like any other's. The equations are definitional; the pass applies them on the way down,
  before it visits the operands.
-/
import Idealize.ShloMosaic.Lib.StableHlo.Run

noncomputable section

namespace Idealize.ShloMosaic.StableHlo

open Idealize.ShloMosaic

/-- A concatenation of two vectors as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- A concatenation of three vectors as a function of the three. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_triple {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

/-- The one-pass evaluation of an operation list's results, concatenations' operands included. -/
macro "after_results_cat" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓concatenate_pair, ↓concatenate_triple]))

/-- The operations of a function the program calls carry their values through casts along the equality of a buffer's type with
    the value's type; the two types are the same once the buffer is a literal, and the casts then go. To be run after
    `after_results_cat`, and on one call's operations at a time, over whatever the buffers held before: each cast
    removed is a rewrite inside the whole term, so the smaller the term around it the better. -/
macro "after_results_strip" : tactic =>
  `(tactic| (simp only [TRef.toBuf, TRef.ofBuf, cast_eq]))

end Idealize.ShloMosaic.StableHlo

end
-- ==== Proof.Spec.lean ====
/-
  The mathematics both programs compute, entry by entry, on the extended reals.

  A tower maps a row `r` of 256 embedded features to 128 outputs: a hidden layer `relu (r · W1 + b1)`, an output layer
  `relu (h · W2 + b2)`, and the result divided by the larger of its Euclidean norm and a small constant.  A score is the
  inner product of a user row and an item row minus the item's logarithmic weight.  Nothing here refers to a tiling, a
  number format, or an order of summation: sums are finite sums over the contracted index.
-/
import Idealize.ShloMosaic.PureOps.Ideal

noncomputable section

namespace Cert.Spec

open Idealize.ShloMosaic

/-- `max x 0`, the zero being the float zero word's value. -/
def relu (x : EReal) : EReal := max x (Ideal.ofBits .f32 0x00000000#32)

/-- Hidden unit `k` of a row: `relu (∑ l, r l · W1 l k + b1 k)`. -/
def hid (r : Fin 256 → EReal) (W1 : Fin 256 → Fin 256 → EReal) (b1 : Fin 256 → EReal) (k : Fin 256) : EReal :=
  relu ((∑ l : Fin 256, r l * W1 l k) + b1 k)

/-- Output unit `j` of a row: `relu (∑ k, hid k · W2 k j + b2 j)`. -/
def feat (r : Fin 256 → EReal) (W1 : Fin 256 → Fin 256 → EReal) (b1 : Fin 256 → EReal)
    (W2 : Fin 256 → Fin 128 → EReal) (b2 : Fin 128 → EReal) (j : Fin 128) : EReal :=
  relu ((∑ k : Fin 256, hid r W1 b1 k * W2 k j) + b2 j)

/-- A vector of 128 entries divided by `max (sqrt (∑ q, f q · f q)) ε`, `ε` the value of the word `0x322BCC77`. -/
def unitv (f : Fin 128 → EReal) (j : Fin 128) : EReal :=
  Ideal.div (f j) (max (Ideal.sqrt (∑ q : Fin 128, f q * f q)) (Ideal.ofBits .f32 0x322BCC77#32))

/-- One tower at a row: the normalized output layer. -/
def tower (r : Fin 256 → EReal) (W1 : Fin 256 → Fin 256 → EReal) (b1 : Fin 256 → EReal)
    (W2 : Fin 256 → Fin 128 → EReal) (b2 : Fin 128 → EReal) (j : Fin 128) : EReal :=
  unitv (feat r W1 b1 W2 b2) j

/-- The inner product of two rows of 128 entries. -/
def dotRow (u v : Fin 128 → EReal) : EReal := ∑ k : Fin 128, u k * v k

/-- A debiased score divided by the temperature `1.0` (the value of the word `0x3F800000`). -/
def score (u v : Fin 128 → EReal) (l : EReal) : EReal :=
  Ideal.div (dotRow u v - l) (Ideal.ofBits .f32 0x3F800000#32)

end Cert.Spec

end
-- ==== Proof.SpecArr.lean ====
/-
  The two whole arrays the launches compute, as functions of whole argument arrays.

  `towers` applies one tower to every row of a 4096 × 256 matrix of embedded features; `scores` is the 4096 × 4096 matrix
  of scores of every user row against every item row, debiased by the item's weight.  Indices are spelled by coordinates.
-/
import proofs.«132451_j36069135352387_1_alg».proof.Proof.Spec
import Idealize.ShloMosaic.Lib.ValueIdx

noncomputable section

namespace Cert.Spec

open Idealize.ShloMosaic Idealize.ShloMosaic.ValueIdx

/-- Entry (i, j): output j of the tower at row i of `x`. -/
def towers (x : (⟨2, ![4096, 256]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![4096, 128]⟩ : Shape).Idx → EReal :=
  fun i => tower (fun l => x (ix2 (i 0) l)) (fun l k => W1 (ix2 l k)) (fun k => b1 (ix1 k))
    (fun k j => W2 (ix2 k j)) (fun j => b2 (ix1 j)) (i 1)

/-- Entry (i, j): the score of row i of `un` against row j of `vn` with weight `l (0, j)`. -/
def scores (un vn : (⟨2, ![4096, 128]⟩ : Shape).Idx → EReal) (l : (⟨2, ![1, 4096]⟩ : Shape).Idx → EReal) :
    (⟨2, ![4096, 4096]⟩ : Shape).Idx → EReal :=
  fun i => score (fun k => un (ix2 (i 0) k)) (fun k => vn (ix2 (i 1) k)) (l (ix2 (0 : Fin 1) (i 1)))

end Cert.Spec

end
-- ==== Proof.Payload.lean ====
/-
  The three kernel bodies read at an index, on the extended reals.

  At the ideal values every float operation is exact and a change of float format is the identity, so a body's value at
  an index is a closed expression in its operands' entries. A tower body at `(p, q)` is the normalized output layer of
  row `p`: two dense layers, each a matrix product into a zero accumulator plus a bias row followed by a maximum with
  zero, then the division by the larger of the row's Euclidean norm and a small constant. The score body at `(p, q)` is
  the inner product of row `p` of one operand and row `q` of the other, minus the weight of column `q`, divided by the
  temperature. Each operation that is not pointwise is read by one small lemma: a cast that adds a trailing unit axis,
  the broadcast of a column over a row, the sum along a row, and the two matrix products, whose sums over the
  contraction index are re-indexed by the contracted coordinate.
-/
import proofs.«132451_j36069135352387_1_alg».proof.Proof.Gen.KernelIdeal.Skeleton
import proofs.«132451_j36069135352387_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal
open scoped BigOperators

/-! ## Layout operations with a trailing unit axis, read at an index -/

section Layout
variable {α : Type}

/-- An `[a]` array cast to `[a, 1]` (a row sum kept as a column) reads, at `(i, u)`, the operand at `i`, whatever
    the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum along the rows, and the two matrix products, read at an index -/

/-- The sum of an `[a, b]` array along its second axis reads, at `p`, the sum of row `p`. -/
theorem multiReduction_add_ab_a_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- An `[m, k]` by `[k, n]` product (the left operand's second axis contracted with the right operand's first) into a
    zero accumulator reads, at `(a, b)`, the sum over `c` of `A (a, c) * B (c, b)`. -/
theorem matmul_nn_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) _ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims _ _ _) k rfl rfl c
  have l2 : (⟨[1], [0], [0], [1], [], [], w⟩ : DotDims _ _ _).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims _ _ _).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- An `[m, k]` by `[n, k]` product (the second axis of both operands contracted) into a zero accumulator reads, at
    `(a, b)`, the inner product of row `a` of the left operand and row `b` of the right one. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  refine (Ideal.matmul_constant_zero_apply _ prec A B (ix2 a b)).trans ?_
  rw [← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims _ _ _) k rfl rfl c
  have l2 : (⟨[1], [1], [0], [0], [], [], w⟩ : DotDims _ _ _).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims _ _ _).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## The score body at an index -/

/-- The score body at `(p, q)`: the inner product of row `p` of the first operand and row `q` of the second, minus
    the weight of column `q`, divided by the temperature. The two format changes are the identity on extended reals. -/
theorem k2_pay1_apply (a b : Vec Ideal S1024x128 .f32) (l : Vec Ideal S1x1024 .f32) (p q : Fin 1024) :
    Gen.k2_pay1 (F := Ideal) a b l (ix2 p q)
      = Cert.Spec.score (fun k => a (ix2 p k)) (fun k => b (ix2 q k)) (l (ix2 (0 : Fin 1) q)) := by
  unfold Gen.k2_pay1 Cert.Spec.score Cert.Spec.dotRow
  show Ideal.div (matmul (F := Ideal) _ none _ _ _ (ix2 p q) - broadcastTo _ _ _ (ix2 p q)) _ = _
  refine congrArg₂ Ideal.div (congrArg₂ (· - ·) ?_ ?_) rfl
  · refine (matmul_nt_zero_apply _ none _ _ p q).trans ?_
    refine Finset.sum_congr rfl fun k _ => ?_
    show shapeCast _ a _ (ix2 p k) * shapeCast _ b _ (ix2 q k) = _
    rw [shapeCast_self, shapeCast_self]
  · rw [shapeCast_self]
    exact broadcastTo_1b_ab_apply l _ p q

/-! ## The tower body at an index -/

/-- One dense layer followed by a maximum with zero, read at `(p, j)`: `relu (∑ c, X (p, c) * W (c, j) + B j)`. The two
    format changes in front of the product are the identity on extended reals; the bias is a vector cast to one row
    and broadcast over the rows. -/
theorem layer_apply {m k n : ℕ}
    (w : DotDims.WF ⟨2, ![m, k]⟩ ⟨2, ![k, n]⟩ ⟨2, ![m, n]⟩ [1] [0] [0] [1] [] [])
    (hb : FTy.bits .bf16 < FTy.bits .f32)
    (X : FVec Ideal ⟨2, ![m, k]⟩ .f32) (W : FVec Ideal ⟨2, ![k, n]⟩ .f32) (B : FVec Ideal ⟨1, ![n]⟩ .f32)
    (hc : (⟨1, ![n]⟩ : Shape).ShapeCasts ⟨2, ![1, n]⟩) (hbr : (⟨2, ![1, n]⟩ : Shape).Broadcasts ⟨2, ![m, n]⟩)
    (p : Fin m) (j : Fin n) :
    maximumf (addf (matmul (⟨[1], [0], [0], [1], [], [], w⟩ : DotDims _ _ _) none (truncf .bf16 X hb) (truncf .bf16 W hb)
          (constant (F := Ideal) _ .f32 0x00000000#32))
        (broadcastTo ⟨2, ![m, n]⟩ (shapeCast ⟨2, ![1, n]⟩ B hc) hbr))
      (broadcast ⟨2, ![m, n]⟩ (Scalar.ofBits (F := Ideal) .f32 0x00000000#32)) (ix2 p j)
      = Cert.Spec.relu ((∑ c : Fin k, X (ix2 p c) * W (ix2 c j)) + B (ix1 j)) := by
  unfold Cert.Spec.relu
  show max (matmul (F := Ideal) _ none _ _ _ (ix2 p j) + broadcastTo _ _ _ (ix2 p j)) _ = _
  refine congrArg₂ max (congrArg₂ (· + ·) ?_ ?_) rfl
  · exact matmul_nn_zero_apply w none _ _ p j
  · exact (broadcastTo_1b_ab_apply _ hbr p j).trans (shapeCast_a_1a_apply B hc 0 j)

/-- The normalization, read at `(p, q)`: the entry divided by the larger of the row's Euclidean norm and the small
    constant. The row's sum of squares is kept as a column, and the column broadcast back over the row. -/
theorem normalize_apply {a b : ℕ} (V : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hbr : (⟨2, ![a, 1]⟩ : Shape).Broadcasts ⟨2, ![a, b]⟩)
    (e : BitVec FTy.f32.bits) (p : Fin a) (q : Fin b) :
    divf V (broadcastTo ⟨2, ![a, b]⟩
        (maximumf (sqrt (shapeCast ⟨2, ![a, 1]⟩ (multiReduction (F := Ideal) .add [1] ⟨1, ![a]⟩ (mulf V V) 0x00000000#32 hr hφ hacc) hc))
          (broadcast ⟨2, ![a, 1]⟩ (Scalar.ofBits (F := Ideal) .f32 e))) hbr) (ix2 p q)
      = Ideal.div (V (ix2 p q)) (max (Ideal.sqrt (∑ k : Fin b, V (ix2 p k) * V (ix2 p k))) (Ideal.ofBits .f32 e)) := by
  show Ideal.div (V (ix2 p q)) (broadcastTo _ _ _ (ix2 p q)) = _
  refine congrArg (Ideal.div (V (ix2 p q))) ?_
  refine (broadcastTo_a1_ab_apply _ hbr p q).trans ?_
  show max (Ideal.sqrt (shapeCast _ _ _ (ix2 p (0 : Fin 1)))) _ = _
  refine congrArg₂ max (congrArg Ideal.sqrt ?_) rfl
  refine (shapeCast_a_a1_apply _ hc p 0).trans ?_
  exact multiReduction_add_ab_a_apply (mulf V V) _ hr hφ hacc p

/-- The two layers, read at `(p, j)`: the output unit `j` of row `p`. The hidden layer's entries are read by the same
    lemma, one per term of the output layer's sum. -/
theorem feat_apply
    (w1 : DotDims.WF S1024x256 S256x256 S1024x256 [1] [0] [0] [1] [] [])
    (w2 : DotDims.WF S1024x256 S256x128 S1024x128 [1] [0] [0] [1] [] [])
    (hb : FTy.bits .bf16 < FTy.bits .f32) (h0 : S1024x256.ShapeCasts S1024x256)
    (hc1 : S256.ShapeCasts S1x256) (hbr1 : S1x256.Broadcasts S1024x256)
    (hc2 : S128.ShapeCasts S1x128) (hbr2 : S1x128.Broadcasts S1024x128)
    (x0 : FVec Ideal S1024x256 .f32) (x1 : FVec Ideal S256x256 .f32) (x2 : FVec Ideal S256 .f32)
    (x3 : FVec Ideal S256x128 .f32) (x4 : FVec Ideal S128 .f32) (p : Fin 1024) (j : Fin 128) :
    maximumf (addf (matmul (⟨[1], [0], [0], [1], [], [], w2⟩ : DotDims _ _ _) none
          (truncf .bf16
            (maximumf (addf (matmul (⟨[1], [0], [0], [1], [], [], w1⟩ : DotDims _ _ _) none
                  (truncf .bf16 (shapeCast S1024x256 x0 h0) hb) (truncf .bf16 x1 hb)
                  (constant (F := Ideal) S1024x256 .f32 0x00000000#32))
                (broadcastTo S1024x256 (shapeCast S1x256 x2 hc1) hbr1))
              (broadcast S1024x256 (Scalar.ofBits (F := Ideal) .f32 0x00000000#32))) hb)
          (truncf .bf16 x3 hb) (constant (F := Ideal) S1024x128 .f32 0x00000000#32))
        (broadcastTo S1024x128 (shapeCast S1x128 x4 hc2) hbr2))
      (broadcast S1024x128 (Scalar.ofBits (F := Ideal) .f32 0x00000000#32)) (ix2 p j)
      = Cert.Spec.feat (fun l => x0 (ix2 p l)) (fun l k => x1 (ix2 l k)) (fun k => x2 (ix1 k)) (fun k j => x3 (ix2 k j))
          (fun j => x4 (ix1 j)) j := by
  unfold Cert.Spec.feat
  refine (layer_apply w2 hb _ x3 x4 hc2 hbr2 p j).trans ?_
  refine congrArg Cert.Spec.relu (congrArg (· + x4 (ix1 j)) (Finset.sum_congr rfl fun c _ => congrArg (· * x3 (ix2 c j)) ?_))
  unfold Cert.Spec.hid
  refine (layer_apply w1 hb _ x1 x2 hc1 hbr1 p c).trans ?_
  rw [shapeCast_self]

/-- The tower body at `(p, q)`: the two layers, then the normalization. -/
theorem k0_pay1_apply (x0 : Vec Ideal S1024x256 .f32) (x1 : Vec Ideal S256x256 .f32) (x2 : Vec Ideal S256 .f32)
    (x3 : Vec Ideal S256x128 .f32) (x4 : Vec Ideal S128 .f32) (p : Fin 1024) (q : Fin 128) :
    Gen.k0_pay1 (F := Ideal) x0 x1 x2 x3 x4 (ix2 p q)
      = Cert.Spec.tower (fun l => x0 (ix2 p l)) (fun l k => x1 (ix2 l k)) (fun k => x2 (ix1 k)) (fun k j => x3 (ix2 k j))
          (fun j => x4 (ix1 j)) q := by
  unfold Gen.k0_pay1 Cert.Spec.tower Cert.Spec.unitv
  refine (normalize_apply _ _ _ _ _ _ _ p q).trans ?_
  have hV := fun j : Fin 128 => feat_apply Gen.dot_S1024x256_S256x256_S1024x256_1_0_0_1_n_n_wf
    Gen.dot_S1024x256_S256x128_S1024x128_1_0_0_1_n_n_wf Gen.bitsLt_bf16_f32 Gen.shapeCasts_S1024x256_S1024x256
    Gen.shapeCasts_S256_S1x256 Gen.broadcasts_S1x256_S1024x256 Gen.shapeCasts_S128_S1x128 Gen.broadcasts_S1x128_S1024x128
    x0 x1 x2 x3 x4 p j
  exact congrArg₂ Ideal.div (hV q) (congrArg₂ max (congrArg Ideal.sqrt
    (Finset.sum_congr rfl fun k _ => congrArg₂ (· * ·) (hV k) (hV k))) rfl)

/-- The second tower's body is the same text: the same reading. -/
theorem k1_pay1_apply (x0 : Vec Ideal S1024x256 .f32) (x1 : Vec Ideal S256x256 .f32) (x2 : Vec Ideal S256 .f32)
    (x3 : Vec Ideal S256x128 .f32) (x4 : Vec Ideal S128 .f32) (p : Fin 1024) (q : Fin 128) :
    Gen.k1_pay1 (F := Ideal) x0 x1 x2 x3 x4 (ix2 p q)
      = Cert.Spec.tower (fun l => x0 (ix2 p l)) (fun l k => x1 (ix2 l k)) (fun k => x2 (ix1 k)) (fun k j => x3 (ix2 k j))
          (fun j => x4 (ix1 j)) q :=
  k0_pay1_apply x0 x1 x2 x3 x4 p q

end Cert.KernelIdeal.Payload

end
-- ==== Proof.Region0.lean ====
/-
  Tower launch 0, read as one array.

  The grid has four points; point a reads rows 1024a … 1024a+1023 of the 4096 × 256 feature matrix and the whole of the two
  weight matrices and two bias vectors, and writes rows 1024a … 1024a+1023 of the 4096 × 128 result.  Row i of a written block
  depends only on row i of the feature block, so every block is the restriction of ONE function of the whole arrays: the tower
  applied to each row.  The four blocks tile the result, so the array ends holding that function.
-/
import proofs.«132451_j36069135352387_1_alg».proof.Proof.Gen.KernelIdeal.Frame
import proofs.«132451_j36069135352387_1_alg».proof.Proof.SpecArr
import proofs.«132451_j36069135352387_1_alg».proof.Proof.Payload
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.KernelIdeal.Payload

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the four points: the feature window moves with the output's row block; the weights and biases stay at
    block zero; the output's row block stays below 4 and its column block is zero. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 3 ∧ win0_5.index t (1 : Fin 2) = 0 :=
  (by decide +kernel : ∀ t : Fin grid0.N, _)

/-- Every row block of the result is some point's. -/
theorem idx_onto : ∀ (q0 : Fin 4), ∃ t : Fin cfg0.N, win0_5.index t = ![q0.val, 0] :=
  (by decide +kernel : ∀ (q0 : Fin 4), ∃ t : Fin grid0.N, win0_5.index t = ![q0.val, 0])

/-- What point `t` writes back is block `t` of the towers of the arrays as the launch finds them. -/
theorem flushed_eq (c : Dev nD) (t : Fin cfg0.N) :
    (dat0 V c).flushed 5 t
      = ((cfg0.win 5).blk t).view.read (Elt Ideal)
          (Cert.Spec.towers (V c main_v9) (V c main_arg6) (V c main_arg7) (V c main_arg8) (V c main_arg9)) := by
  show (cfg0.win 5).cut (grid0.coords t) ((dat0 V c).after 5 t) = _
  rw [after0_5]
  unfold out0_5
  rw [View.canon_unit_zero hz2]
  simp only [View.ld_unit_zero (S := S1024x256) hz2, View.ld_unit_zero (S := S256x256) hz2, View.ld_unit_zero (S := S256) hz1,
    View.ld_unit_zero (S := S256x128) hz2, View.ld_unit_zero (S := S128) hz1]
  obtain ⟨e0, e1, e2, e3, e4, e5, e6, e7, e8, e9⟩ := idx_facts t
  funext j
  obtain ⟨p, q, rfl⟩ : ∃ (p : Fin 1024) (q : Fin 128), j = ix2 p q := ⟨j 0, j 1, eq_ix2 j⟩
  refine (k0_pay1_apply _ _ _ _ _ p q).trans ?_
  rw [View.read_apply]
  unfold Cert.Spec.towers
  have h0 : ∀ l : Fin 256, iblk0 V c 0 t (ix2 p l)
      = V c main_v9 (ix2 ((((cfg0.win 5).blk t).view.emb (ix2 p q)) 0) l) := by
    intro l
    show V c main_v9 (((cfg0.win 0).blk t).view.emb (ix2 p l)) = _
    refine congrArg (V c main_v9) ?_
    funext a; apply Fin.ext
    match a with
    | ⟨0, _⟩ => show win0_0.index t (0 : Fin 2) * 1024 + 1 * p.val = win0_5.index t (0 : Fin 2) * 1024 + 1 * p.val; omega
    | ⟨1, _⟩ => show win0_0.index t (1 : Fin 2) * 256 + 1 * l.val = l.val; omega
  have h1 : ∀ (l k : Fin 256), iblk0 V c 1 t (ix2 l k) = V c main_arg6 (ix2 l k) := by
    intro l k
    show V c main_arg6 (((cfg0.win 1).blk t).view.emb (ix2 l k)) = _
    refine congrArg (V c main_arg6) ?_
    funext a; apply Fin.ext
    match a with
    | ⟨0, _⟩ => show win0_1.index t (0 : Fin 2) * 256 + 1 * l.val = l.val; omega
    | ⟨1, _⟩ => show win0_1.index t (1 : Fin 2) * 256 + 1 * k.val = k.val; omega
  have h2 : ∀ (k : Fin 256), iblk0 V c 2 t (ix1 k) = V c main_arg7 (ix1 k) := by
    intro k
    show V c main_arg7 (((cfg0.win 2).blk t).view.emb (ix1 k)) = _
    refine congrArg (V c main_arg7) ?_
    funext a; apply Fin.ext
    match a with
    | ⟨0, _⟩ => show win0_2.index t (0 : Fin 1) * 256 + 1 * k.val = k.val; omega
  have h3 : ∀ (k : Fin 256) (j : Fin 128), iblk0 V c 3 t (ix2 k j) = V c main_arg8 (ix2 k j) := by
    intro k j
    show V c main_arg8 (((cfg0.win 3).blk t).view.emb (ix2 k j)) = _
    refine congrArg (V c main_arg8) ?_
    funext a; apply Fin.ext
    match a with
    | ⟨0, _⟩ => show win0_3.index t (0 : Fin 2) * 256 + 1 * k.val = k.val; omega
    | ⟨1, _⟩ => show win0_3.index t (1 : Fin 2) * 128 + 1 * j.val = j.val; omega
  have h4 : ∀ (j : Fin 128), iblk0 V c 4 t (ix1 j) = V c main_arg9 (ix1 j) := by
    intro j
    show V c main_arg9 (((cfg0.win 4).blk t).view.emb (ix1 j)) = _
    refine congrArg (V c main_arg9) ?_
    funext a; apply Fin.ext
    match a with
    | ⟨0, _⟩ => show win0_4.index t (0 : Fin 1) * 128 + 1 * j.val = j.val; omega
  have hq : (((cfg0.win 5).blk t).view.emb (ix2 p q)) 1 = q := by
    apply Fin.ext
    show win0_5.index t (1 : Fin 2) * 128 + 1 * q.val = q.val; omega
  simp only [h0, h1, h2, h3, h4]
  rw [hq]
  rfl

/-- An index of the result is in point `t`'s block iff each coordinate is in the block's range on its axis. -/
theorem mem_blk (t : Fin cfg0.N) (i : S4096x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v20).slice (win0_5.rect t)).set ↔ _
  rw [View.set_slice_whole, Rect.mem_set_unit]
  exact Iff.rfl

/-- The four row blocks tile the result: row i lies in the block of the point whose output row block is i / 1024. -/
theorem cover (i : S4096x128.Idx) :
    ∃ t : Fin cfg0.N, (cfg0.win 5).flush t = true ∧ i ∈ ((cfg0.win 5).blk t).view.set := by
  have hi0 : (i 0).val < 4096 := (i 0).isLt
  have hi1 : (i 1).val < 128 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- The result array after the launch: the towers of the arrays as the launch finds them. -/
theorem final (c : Dev nD) :
    (dat0 V c).arrAt 5 cfg0.N
      = Cert.Spec.towers (V c main_v9) (V c main_arg6) (V c main_arg7) (V c main_arg8) (V c main_arg9) :=
  (dat0 V c).arrAt_eq_of_cover 5 _ (fun t _ => flushed_eq V c t) cover

end Cert.KernelIdeal.Region0

end
-- ==== Proof.Region1.lean ====
/-
  Tower launch 1, read as one array.

  The grid has four points; point a reads rows 1024a … 1024a+1023 of the 4096 × 256 feature matrix and the whole of the two
  weight matrices and two bias vectors, and writes rows 1024a … 1024a+1023 of the 4096 × 128 result.  Row i of a written block
  depends only on row i of the feature block, so every block is the restriction of ONE function of the whole arrays: the tower
  applied to each row.  The four blocks tile the result, so the array ends holding that function.
-/
import proofs.«132451_j36069135352387_1_alg».proof.Proof.Gen.KernelIdeal.Frame
import proofs.«132451_j36069135352387_1_alg».proof.Proof.SpecArr
import proofs.«132451_j36069135352387_1_alg».proof.Proof.Payload
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.KernelIdeal.Payload

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the four points: the feature window moves with the output's row block; the weights and biases stay at
    block zero; the output's row block stays below 4 and its column block is zero. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) ≤ 3 ∧ win1_5.index t (1 : Fin 2) = 0 :=
  (by decide +kernel : ∀ t : Fin grid1.N, _)

/-- Every row block of the result is some point's. -/
theorem idx_onto : ∀ (q0 : Fin 4), ∃ t : Fin cfg1.N, win1_5.index t = ![q0.val, 0] :=
  (by decide +kernel : ∀ (q0 : Fin 4), ∃ t : Fin grid1.N, win1_5.index t = ![q0.val, 0])

/-- What point `t` writes back is block `t` of the towers of the arrays as the launch finds them. -/
theorem flushed_eq (c : Dev nD) (t : Fin cfg1.N) :
    (dat1 V c).flushed 5 t
      = ((cfg1.win 5).blk t).view.read (Elt Ideal)
          (Cert.Spec.towers (V c main_v19) (V c main_arg10) (V c main_arg11) (V c main_arg12) (V c main_arg13)) := by
  show (cfg1.win 5).cut (grid1.coords t) ((dat1 V c).after 5 t) = _
  rw [after1_5]
  unfold out1_5
  rw [View.canon_unit_zero hz2]
  simp only [View.ld_unit_zero (S := S1024x256) hz2, View.ld_unit_zero (S := S256x256) hz2, View.ld_unit_zero (S := S256) hz1,
    View.ld_unit_zero (S := S256x128) hz2, View.ld_unit_zero (S := S128) hz1]
  obtain ⟨e0, e1, e2, e3, e4, e5, e6, e7, e8, e9⟩ := idx_facts t
  funext j
  obtain ⟨p, q, rfl⟩ : ∃ (p : Fin 1024) (q : Fin 128), j = ix2 p q := ⟨j 0, j 1, eq_ix2 j⟩
  refine (k1_pay1_apply _ _ _ _ _ p q).trans ?_
  rw [View.read_apply]
  unfold Cert.Spec.towers
  have h0 : ∀ l : Fin 256, iblk1 V c 0 t (ix2 p l)
      = V c main_v19 (ix2 ((((cfg1.win 5).blk t).view.emb (ix2 p q)) 0) l) := by
    intro l
    show V c main_v19 (((cfg1.win 0).blk t).view.emb (ix2 p l)) = _
    refine congrArg (V c main_v19) ?_
    funext a; apply Fin.ext
    match a with
    | ⟨0, _⟩ => show win1_0.index t (0 : Fin 2) * 1024 + 1 * p.val = win1_5.index t (0 : Fin 2) * 1024 + 1 * p.val; omega
    | ⟨1, _⟩ => show win1_0.index t (1 : Fin 2) * 256 + 1 * l.val = l.val; omega
  have h1 : ∀ (l k : Fin 256), iblk1 V c 1 t (ix2 l k) = V c main_arg10 (ix2 l k) := by
    intro l k
    show V c main_arg10 (((cfg1.win 1).blk t).view.emb (ix2 l k)) = _
    refine congrArg (V c main_arg10) ?_
    funext a; apply Fin.ext
    match a with
    | ⟨0, _⟩ => show win1_1.index t (0 : Fin 2) * 256 + 1 * l.val = l.val; omega
    | ⟨1, _⟩ => show win1_1.index t (1 : Fin 2) * 256 + 1 * k.val = k.val; omega
  have h2 : ∀ (k : Fin 256), iblk1 V c 2 t (ix1 k) = V c main_arg11 (ix1 k) := by
    intro k
    show V c main_arg11 (((cfg1.win 2).blk t).view.emb (ix1 k)) = _
    refine congrArg (V c main_arg11) ?_
    funext a; apply Fin.ext
    match a with
    | ⟨0, _⟩ => show win1_2.index t (0 : Fin 1) * 256 + 1 * k.val = k.val; omega
  have h3 : ∀ (k : Fin 256) (j : Fin 128), iblk1 V c 3 t (ix2 k j) = V c main_arg12 (ix2 k j) := by
    intro k j
    show V c main_arg12 (((cfg1.win 3).blk t).view.emb (ix2 k j)) = _
    refine congrArg (V c main_arg12) ?_
    funext a; apply Fin.ext
    match a with
    | ⟨0, _⟩ => show win1_3.index t (0 : Fin 2) * 256 + 1 * k.val = k.val; omega
    | ⟨1, _⟩ => show win1_3.index t (1 : Fin 2) * 128 + 1 * j.val = j.val; omega
  have h4 : ∀ (j : Fin 128), iblk1 V c 4 t (ix1 j) = V c main_arg13 (ix1 j) := by
    intro j
    show V c main_arg13 (((cfg1.win 4).blk t).view.emb (ix1 j)) = _
    refine congrArg (V c main_arg13) ?_
    funext a; apply Fin.ext
    match a with
    | ⟨0, _⟩ => show win1_4.index t (0 : Fin 1) * 128 + 1 * j.val = j.val; omega
  have hq : (((cfg1.win 5).blk t).view.emb (ix2 p q)) 1 = q := by
    apply Fin.ext
    show win1_5.index t (1 : Fin 2) * 128 + 1 * q.val = q.val; omega
  simp only [h0, h1, h2, h3, h4]
  rw [hq]
  rfl

/-- An index of the result is in point `t`'s block iff each coordinate is in the block's range on its axis. -/
theorem mem_blk (t : Fin cfg1.N) (i : S4096x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v21).slice (win1_5.rect t)).set ↔ _
  rw [View.set_slice_whole, Rect.mem_set_unit]
  exact Iff.rfl

/-- The four row blocks tile the result: row i lies in the block of the point whose output row block is i / 1024. -/
theorem cover (i : S4096x128.Idx) :
    ∃ t : Fin cfg1.N, (cfg1.win 5).flush t = true ∧ i ∈ ((cfg1.win 5).blk t).view.set := by
  have hi0 : (i 0).val < 4096 := (i 0).isLt
  have hi1 : (i 1).val < 128 := (i 1).isLt
  obtain ⟨t, ht⟩ := idx_onto ⟨(i 0).val / 1024, by omega⟩
  have q0 : win1_5.index t (0 : Fin 2) = (i 0).val / 1024 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 128 ≤ (i 1).val ∧ (i 1).val < win1_5.index t (1 : Fin 2) * 128 + 128; omega

/-- The result array after the launch: the towers of the arrays as the launch finds them. -/
theorem final (c : Dev nD) :
    (dat1 V c).arrAt 5 cfg1.N
      = Cert.Spec.towers (V c main_v19) (V c main_arg10) (V c main_arg11) (V c main_arg12) (V c main_arg13) :=
  (dat1 V c).arrAt_eq_of_cover 5 _ (fun t _ => flushed_eq V c t) cover

end Cert.KernelIdeal.Region1

end
-- ==== Proof.Region2.lean ====
/-
  The score launch, read as one array.

  The grid is 4 × 4; point (a, b) reads rows 1024a … 1024a+1023 of the user matrix, rows 1024b … 1024b+1023 of the item
  matrix and columns 1024b … 1024b+1023 of the one-row weight matrix, and writes block (a, b) of the 4096 × 4096 result.
  Entry (i, j) of a written block depends only on row i of the first block, row j of the second and column j of the third,
  so every block is the restriction of ONE function of the three whole arrays: entry (i, j) is the score of user row i
  against item row j.  The sixteen blocks tile the result, so the array ends holding that function.
-/
import proofs.«132451_j36069135352387_1_alg».proof.Proof.Gen.KernelIdeal.Frame
import proofs.«132451_j36069135352387_1_alg».proof.Proof.SpecArr
import proofs.«132451_j36069135352387_1_alg».proof.Proof.Payload
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The index maps over the sixteen points: the first input moves with the output's row block, the second and third with its
    column block, and the output's block coordinates stay below 4. -/
theorem idx_facts : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 3 ∧ win2_3.index t (1 : Fin 2) ≤ 3 :=
  (by decide +kernel : ∀ t : Fin grid2.N, _)

/-- Every block of the result is some point's. -/
theorem idx_onto : ∀ (q0 : Fin 4) (q1 : Fin 4), ∃ t : Fin cfg2.N, win2_3.index t = ![q0.val, q1.val] :=
  (by decide +kernel : ∀ (q0 : Fin 4) (q1 : Fin 4), ∃ t : Fin grid2.N, win2_3.index t = ![q0.val, q1.val])

/-- What point `t` writes back is block `t` of the score matrix of the three arrays as the launch finds them. -/
theorem flushed_eq (c : Dev nD) (t : Fin cfg2.N) :
    (dat2 V c).flushed 3 t
      = ((cfg2.win 3).blk t).view.read (Elt Ideal) (Cert.Spec.scores (V c main_v20) (V c main_v21) (V c main_v30)) := by
  show (cfg2.win 3).cut (grid2.coords t) ((dat2 V c).after 3 t) = _
  rw [after2_3]
  unfold out2_3
  rw [View.canon_unit_zero hz]
  simp only [View.ld_unit_zero (S := S1024x128) hz, View.ld_unit_zero (S := S1x1024) hz]
  obtain ⟨e0, e1, e2, e3, e4, e5, e6, e7⟩ := idx_facts t
  funext j
  obtain ⟨p, q, rfl⟩ : ∃ (p : Fin 1024) (q : Fin 1024), j = ix2 p q := ⟨j 0, j 1, eq_ix2 j⟩
  refine (k2_pay1_apply _ _ _ p q).trans ?_
  rw [View.read_apply]
  unfold Cert.Spec.scores
  have h0 : ∀ k : Fin 128, iblk2 V c 0 t (ix2 p k)
      = V c main_v20 (ix2 ((((cfg2.win 3).blk t).view.emb (ix2 p q)) 0) k) := by
    intro k
    show V c main_v20 (((cfg2.win 0).blk t).view.emb (ix2 p k)) = _
    refine congrArg (V c main_v20) ?_
    funext a; apply Fin.ext
    match a with
    | ⟨0, _⟩ => show win2_0.index t (0 : Fin 2) * 1024 + 1 * p.val = win2_3.index t (0 : Fin 2) * 1024 + 1 * p.val; omega
    | ⟨1, _⟩ => show win2_0.index t (1 : Fin 2) * 128 + 1 * k.val = k.val; omega
  have h1 : ∀ k : Fin 128, iblk2 V c 1 t (ix2 q k)
      = V c main_v21 (ix2 ((((cfg2.win 3).blk t).view.emb (ix2 p q)) 1) k) := by
    intro k
    show V c main_v21 (((cfg2.win 1).blk t).view.emb (ix2 q k)) = _
    refine congrArg (V c main_v21) ?_
    funext a; apply Fin.ext
    match a with
    | ⟨0, _⟩ => show win2_1.index t (0 : Fin 2) * 1024 + 1 * q.val = win2_3.index t (1 : Fin 2) * 1024 + 1 * q.val; omega
    | ⟨1, _⟩ => show win2_1.index t (1 : Fin 2) * 128 + 1 * k.val = k.val; omega
  have h2 : iblk2 V c 2 t (ix2 (0 : Fin 1) q)
      = V c main_v30 (ix2 (0 : Fin 1) ((((cfg2.win 3).blk t).view.emb (ix2 p q)) 1)) := by
    show V c main_v30 (((cfg2.win 2).blk t).view.emb (ix2 (0 : Fin 1) q)) = _
    refine congrArg (V c main_v30) ?_
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega
  simp only [h0, h1, h2]
  rfl

/-- An index of the result is in point `t`'s block iff each coordinate is in the block's range on its axis. -/
theorem mem_blk (t : Fin cfg2.N) (i : S4096x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v31).slice (win2_3.rect t)).set ↔ _
  rw [View.set_slice_whole, Rect.mem_set_unit]
  exact Iff.rfl

/-- The sixteen blocks tile the result: index (i, j) lies in the block of the point whose output block is (i / 1024, j / 1024). -/
theorem cover (i : S4096x4096.Idx) :
    ∃ t : Fin cfg2.N, (cfg2.win 3).flush t = true ∧ i ∈ ((cfg2.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The result array after the launch: the score matrix of the three arrays as the launch finds them. -/
theorem final (c : Dev nD) :
    (dat2 V c).arrAt 3 cfg2.N = Cert.Spec.scores (V c main_v20) (V c main_v21) (V c main_v30) :=
  (dat2 V c).arrAt_eq_of_cover 3 _ (fun t _ => flushed_eq V c t) cover

end Cert.KernelIdeal.Region2

end
-- ==== Proof.Whole.lean ====
/-
  The idealized kernel program's result as a function of the launch memory.

  @main folds the launch memory through eight segments.  Before the first launch the host gathers the user and item feature
  rows (`embed`); launch 0 and launch 1 apply a tower to every row of each; then the host gathers the item weights and takes
  logarithms (`logw`); launch 2 forms the score matrix; the tail builds a table of (row, column) pairs and picks those
  entries of the score matrix (`pick`).  Each boundary's contents at the buffer the next step reads is named here, walking
  the fold one segment at a time; nothing is evaluated at full size.
-/
import proofs.«132451_j36069135352387_1_alg».proof.Proof.Gen.KernelIdeal.Frame
import proofs.«132451_j36069135352387_1_alg».proof.Proof.LibAfterResultsCat
import proofs.«132451_j36069135352387_1_alg».proof.Proof.SpecArr
import proofs.«132451_j36069135352387_1_alg».proof.Proof.Region0
import proofs.«132451_j36069135352387_1_alg».proof.Proof.Region1
import proofs.«132451_j36069135352387_1_alg».proof.Proof.Region2
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)
/-- A buffer no operation of a host stretch writes holds after it what it held before. -/
local macro "not_written" : tactic => `(tactic| (
  refine StableHlo.after_of_forall_not_mem _ _ (List.forall_iff_forall_mem.mp ?_)
  simp only [hostOps0, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))
/-- Rows of the four embedding tables picked by the ids (a negative id wrapped once), laid side by side. -/
def embed (tbl : FVec Ideal S4x100000x64 .f32) (ids : IVec S4096x4 32) : FVec Ideal S4096x256 .f32 :=
  shapeCast S4096x256 (transpose S4096x4x64 [1, 0, 2] (Host.gather gather_S4x100000x64_S4x4096x1_S4x4096x64_2_1_0_0_1_2_1164 tbl
    (broadcastInDim S4x4096x1 ![0, 1] bcast_S4x4096_S4x4096x1_0_1 (transpose S4x4096 [1, 0]
      (select (cmpi .slt ids (broadcastInDim S4096x4 ![] bcast_S_S4096x4 (constantI S_ 32 0#32)))
        (addi ids (broadcastInDim S4096x4 ![] bcast_S_S4096x4 (constantI S_ 32 100000#32))) ids)
      transposes_S4096x4_S4x4096_1_0))) transposes_S4x4096x64_S4096x4x64_1_0_2) shapeCasts_S4096x4x64_S4096x256

/-- The logarithms of the weights picked by the ids (a negative id wrapped once), as a one-row matrix. -/
def logw (tbl : FVec Ideal S100000 .f32) (ids : IVec S4096 32) : FVec Ideal S1x4096 .f32 :=
  shapeCast S1x4096 (Host.log (Host.gather gather_S100000_S4096x1_S4096_n_0_n_n_0_1_1 tbl (broadcastInDim S4096x1 ![0] bcast_S4096_S4096x1_0
    (select (cmpi .slt ids (broadcastInDim S4096 ![] bcast_S_S4096 (constantI S_ 32 0#32)))
      (addi ids (broadcastInDim S4096 ![] bcast_S_S4096 (constantI S_ 32 100000#32))) ids)))) shapeCasts_S4096_S1x4096

/-- The entries of a 4096 × 4096 matrix at a table of 16384 (row, column) pairs, as a 4096 × 4 matrix. -/
def pick (I : IVec S16384x2 32) (S : FVec Ideal S4096x4096 .f32) : FVec Ideal S4096x4 .f32 :=
  shapeCast S4096x4 (Host.gather gather_S4096x4096_S16384x2_S16384_n_01_n_n_01_1_11 S I) shapeCasts_S16384_S4096x4

/-- The table of pairs the tail builds: it reads no argument. -/
def pairs (c : Dev nD) : IVec S16384x2 32 := W8 m ρ c (Proc.devRef .tc main_v56)

/-! ## Before the first launch -/

theorem V1_v9 (c : Dev nD) : V1 m ρ c main_v9 = embed (m ((c : Thread nD τ).loc main_arg3)) (m ((c : Thread nD τ).loc main_arg0)) := by
  show StableHlo.after hostOps0 (W0 m ρ c) (Proc.devRef .tc main_v9) = _
  after_results_simp
  rfl
theorem V1_v19 (c : Dev nD) : V1 m ρ c main_v19 = embed (m ((c : Thread nD τ).loc main_arg4)) (m ((c : Thread nD τ).loc main_arg1)) := by
  show StableHlo.after hostOps0 (W0 m ρ c) (Proc.devRef .tc main_v19) = _
  after_results_simp
  rfl
/-- The host stretch before the launches writes no argument. -/
theorem W1_arg (c : Dev nD) (b : Ref sig .tc) (hb : b = main_arg2 ∨ b = main_arg5 ∨ b = main_arg6 ∨ b = main_arg7 ∨ b = main_arg8 ∨ b = main_arg9
      ∨ b = main_arg10 ∨ b = main_arg11 ∨ b = main_arg12 ∨ b = main_arg13) :
    W1 m ρ c (Proc.devRef .tc b) = m ((c : Thread nD τ).loc b) := by
  rcases hb with rfl | rfl | rfl | rfl | rfl | rfl | rfl | rfl | rfl | rfl <;>
  · show StableHlo.after hostOps0 (W0 m ρ c) _ = W0 m ρ c _
    not_written

/-! ## Launch 0 and launch 1 -/

theorem W2_v20 (c : Dev nD) : W2 m ρ c (Proc.devRef .tc main_v20)
    = Cert.Spec.towers (embed (m ((c : Thread nD τ).loc main_arg3)) (m ((c : Thread nD τ).loc main_arg0)))
        (m ((c : Thread nD τ).loc main_arg6)) (m ((c : Thread nD τ).loc main_arg7)) (m ((c : Thread nD τ).loc main_arg8)) (m ((c : Thread nD τ).loc main_arg9)) := by
  refine (W2_arr m ρ c 5).trans ?_
  rw [Cert.KernelIdeal.Region0.final (V1 m ρ) c, V1_v9]
  show Cert.Spec.towers _ (W1 m ρ c (Proc.devRef .tc main_arg6)) (W1 m ρ c (Proc.devRef .tc main_arg7)) (W1 m ρ c (Proc.devRef .tc main_arg8)) (W1 m ρ c (Proc.devRef .tc main_arg9)) = _
  rw [W1_arg m ρ c main_arg6 (by simp), W1_arg m ρ c main_arg7 (by simp), W1_arg m ρ c main_arg8 (by simp), W1_arg m ρ c main_arg9 (by simp)]

theorem W2_keep (c : Dev nD) (b : Ref sig .tc) (hb : ∀ w, Pipeline.arrRef spec0 w ≠ b) :
    W2 m ρ c (Proc.devRef .tc b) = W1 m ρ c (Proc.devRef .tc b) := W2_of_ne m ρ c b hb

theorem W3_v21 (c : Dev nD) : W3 m ρ c (Proc.devRef .tc main_v21)
    = Cert.Spec.towers (embed (m ((c : Thread nD τ).loc main_arg4)) (m ((c : Thread nD τ).loc main_arg1)))
        (m ((c : Thread nD τ).loc main_arg10)) (m ((c : Thread nD τ).loc main_arg11)) (m ((c : Thread nD τ).loc main_arg12)) (m ((c : Thread nD τ).loc main_arg13)) := by
  refine (W3_arr m ρ c 5).trans ?_
  rw [Cert.KernelIdeal.Region1.final (V2 m ρ) c]
  show Cert.Spec.towers (W2 m ρ c (Proc.devRef .tc main_v19)) (W2 m ρ c (Proc.devRef .tc main_arg10)) (W2 m ρ c (Proc.devRef .tc main_arg11)) (W2 m ρ c (Proc.devRef .tc main_arg12)) (W2 m ρ c (Proc.devRef .tc main_arg13)) = _
  rw [W2_of_ne m ρ c main_v19 (by decide), W2_of_ne m ρ c main_arg10 (by decide), W2_of_ne m ρ c main_arg11 (by decide),
    W2_of_ne m ρ c main_arg12 (by decide), W2_of_ne m ρ c main_arg13 (by decide),
    W1_arg m ρ c main_arg10 (by simp), W1_arg m ρ c main_arg11 (by simp), W1_arg m ρ c main_arg12 (by simp), W1_arg m ρ c main_arg13 (by simp)]
  exact congrArg (fun x => Cert.Spec.towers x _ _ _ _) (V1_v19 m ρ c)

theorem W3_v20 (c : Dev nD) : W3 m ρ c (Proc.devRef .tc main_v20) = W2 m ρ c (Proc.devRef .tc main_v20) :=
  W3_of_ne m ρ c main_v20 (by decide)

/-! ## The weights, and launch 2 -/

theorem W3_arg (c : Dev nD) (b : Ref sig .tc) (hb : b = main_arg2 ∨ b = main_arg5) :
    W3 m ρ c (Proc.devRef .tc b) = m ((c : Thread nD τ).loc b) := by
  rcases hb with rfl | rfl
  · exact (W3_of_ne m ρ c main_arg2 (by decide)).trans ((W2_of_ne m ρ c main_arg2 (by decide)).trans (W1_arg m ρ c main_arg2 (by simp)))
  · exact (W3_of_ne m ρ c main_arg5 (by decide)).trans ((W2_of_ne m ρ c main_arg5 (by decide)).trans (W1_arg m ρ c main_arg5 (by simp)))

theorem W4_v30 (c : Dev nD) : W4 m ρ c (Proc.devRef .tc main_v30)
    = logw (m ((c : Thread nD τ).loc main_arg5)) (m ((c : Thread nD τ).loc main_arg2)) := by
  show StableHlo.after hostOps2 (W3 m ρ c) (Proc.devRef .tc main_v30) = _
  after_results_simp
  rw [W3_arg m ρ c main_arg5 (by simp), W3_arg m ρ c main_arg2 (by simp)]
  rfl
theorem W4_v20 (c : Dev nD) : W4 m ρ c (Proc.devRef .tc main_v20) = W3 m ρ c (Proc.devRef .tc main_v20) := by
  show StableHlo.after hostOps2 (W3 m ρ c) (Proc.devRef .tc main_v20) = _
  not_written
theorem W4_v21 (c : Dev nD) : W4 m ρ c (Proc.devRef .tc main_v21) = W3 m ρ c (Proc.devRef .tc main_v21) := by
  show StableHlo.after hostOps2 (W3 m ρ c) (Proc.devRef .tc main_v21) = _
  not_written

/-- The score matrix the third launch leaves, as a function of the launch memory. -/
def scoreMat (c : Dev nD) : FVec Ideal S4096x4096 .f32 :=
  Cert.Spec.scores
    (Cert.Spec.towers (embed (m ((c : Thread nD τ).loc main_arg3)) (m ((c : Thread nD τ).loc main_arg0)))
      (m ((c : Thread nD τ).loc main_arg6)) (m ((c : Thread nD τ).loc main_arg7)) (m ((c : Thread nD τ).loc main_arg8)) (m ((c : Thread nD τ).loc main_arg9)))
    (Cert.Spec.towers (embed (m ((c : Thread nD τ).loc main_arg4)) (m ((c : Thread nD τ).loc main_arg1)))
      (m ((c : Thread nD τ).loc main_arg10)) (m ((c : Thread nD τ).loc main_arg11)) (m ((c : Thread nD τ).loc main_arg12)) (m ((c : Thread nD τ).loc main_arg13)))
    (logw (m ((c : Thread nD τ).loc main_arg5)) (m ((c : Thread nD τ).loc main_arg2)))

theorem W5_v31 (c : Dev nD) : W5 m ρ c (Proc.devRef .tc main_v31) = scoreMat m c := by
  refine (W5_arr m ρ c 3).trans ?_
  rw [Cert.KernelIdeal.Region2.final (V4 m ρ) c]
  show Cert.Spec.scores (W4 m ρ c (Proc.devRef .tc main_v20)) (W4 m ρ c (Proc.devRef .tc main_v21)) (W4 m ρ c (Proc.devRef .tc main_v30)) = _
  rw [W4_v20, W4_v21, W4_v30, W3_v20, W2_v20, W3_v21]
  rfl

/-! ## The tail -/

theorem W8_v58 (c : Dev nD) : W8 m ρ c (Proc.devRef .tc main_v58) = pick (pairs m ρ c) (scoreMat m c) := by
  rw [← W5_v31 m ρ c]
  unfold pick pairs
  show StableHlo.after hostOps3_2 (StableHlo.after hostOps3_1 (StableHlo.after hostOps3 (W5 m ρ c))) (Proc.devRef .tc main_v58)
    = shapeCast S4096x4 (Host.gather gather_S4096x4096_S16384x2_S16384_n_01_n_n_01_1_11 (W5 m ρ c (Proc.devRef .tc main_v31))
        (StableHlo.after hostOps3_2 (StableHlo.after hostOps3_1 (StableHlo.after hostOps3 (W5 m ρ c))) (Proc.devRef .tc main_v56))) shapeCasts_S16384_S4096x4
  after_results_cat
  rfl

end Cert.KernelIdeal.Whole

end
-- ==== Proof.RefStages.lean ====
/-
  The reference program's stages as functions of arrays: each is literally the composition of the host operations the
  program applies between two named values, so that the program's result is their composition.

  `embed` gathers feature rows; `mlp` is two dense layers, each followed by a maximum with zero; `unit` divides every row by
  the larger of its Euclidean norm and a small constant; `logsw` gathers weights and takes logarithms; `scores` multiplies the
  user matrix by the transposed item matrix and subtracts the weights from every row; `fin` picks entries of the score matrix at a
  table of (row, column) pairs and divides them by one.
-/
import proofs.«132451_j36069135352387_1_alg».proof.ReferenceIdeal
import Idealize.ShloMosaic.PureOps.Ideal

noncomputable section

namespace Cert.ReferenceIdeal.Stages

open Cert.ReferenceIdeal Idealize.ShloMosaic

variable {F : FTy → Type} [FloatOps F]

-- the shape facts the program states (broadcast, transpose and reshape side conditions) are fields of its `Facts` class
variable [Facts]
open Facts₀ Facts

def embed (tbl : FVec F S4x100000x64 .f32) (ids : IVec S4096x4 32) : FVec F S4096x256 .f32 :=
  shapeCast S4096x256 (transpose S4096x4x64 [1, 0, 2] (Host.gather gather_S4x100000x64_S4x4096x1_S4x4096x64_2_1_0_0_1_2_1164 tbl
    (broadcastInDim S4x4096x1 ![0, 1] bcast_S4x4096_S4x4096x1_0_1 (transpose S4x4096 [1, 0]
      (select (cmpi .slt ids (broadcastInDim S4096x4 ![] bcast_S_S4096x4 (constantI S_ 32 0#32)))
        (addi ids (broadcastInDim S4096x4 ![] bcast_S_S4096x4 (constantI S_ 32 100000#32))) ids)
      transposes_S4096x4_S4x4096_1_0))) transposes_S4x4096x64_S4096x4x64_1_0_2) shapeCasts_S4096x4x64_S4096x256

/-- The hidden layer: `max (x · W1 + b1) 0`. -/
def hidden (x : FVec F S4096x256 .f32) (W1 : FVec F S256x256 .f32) (b1 : FVec F S256 .f32) : FVec F S4096x256 .f32 :=
  maximumf (addf (Host.dotGeneral dot_S4096x256_S256x256_S4096x256_1_0_0_1_n_n none x W1)
      (broadcastInDim S4096x256 ![0, 1] bcast_S1x256_S4096x256_0_1 (broadcastInDim S1x256 ![1] bcast_S256_S1x256_1 b1)))
    (broadcastInDim S4096x256 ![] bcast_S_S4096x256 (constant S_ .f32 0x00000000#32))

/-- The two layers: `max (hidden · W2 + b2) 0`. -/
def mlp (x : FVec F S4096x256 .f32) (W1 : FVec F S256x256 .f32) (b1 : FVec F S256 .f32) (W2 : FVec F S256x128 .f32)
    (b2 : FVec F S128 .f32) : FVec F S4096x128 .f32 :=
  maximumf (addf (Host.dotGeneral dot_S4096x256_S256x128_S4096x128_1_0_0_1_n_n none (hidden x W1 b1) W2)
      (broadcastInDim S4096x128 ![0, 1] bcast_S1x128_S4096x128_0_1 (broadcastInDim S1x128 ![1] bcast_S128_S1x128_1 b2)))
    (broadcastInDim S4096x128 ![] bcast_S_S4096x128 (constant S_ .f32 0x00000000#32))

/-- Every row divided by `max (sqrt (sum of its squares)) ε`. -/
def unit (u : FVec F S4096x128 .f32) : FVec F S4096x128 .f32 :=
  Host.divf u (broadcastInDim S4096x128 ![0, 1] bcast_S4096x1_S4096x128_0_1
    (maximumf (Host.sqrt (broadcastInDim S4096x1 ![0] bcast_S4096_S4096x1_0
        (Host.reduceAdd (mulf u u) (constant S_ .f32 0x00000000#32) reducesTo_S4096x128_S4096_d1 h_S_)))
      (broadcastInDim S4096x1 ![] bcast_S_S4096x1 (constant S_ .f32 0x322BCC77#32))))

def logsw (tbl : FVec F S100000 .f32) (ids : IVec S4096 32) : FVec F S4096 .f32 :=
  Host.log (Host.gather gather_S100000_S4096x1_S4096_n_0_n_n_0_1_1 tbl (broadcastInDim S4096x1 ![0] bcast_S4096_S4096x1_0
    (select (cmpi .slt ids (broadcastInDim S4096 ![] bcast_S_S4096 (constantI S_ 32 0#32)))
      (addi ids (broadcastInDim S4096 ![] bcast_S_S4096 (constantI S_ 32 100000#32))) ids)))

def scores (un vn : FVec F S4096x128 .f32) (l : FVec F S4096 .f32) : FVec F S4096x4096 .f32 :=
  subf (Host.dotGeneral dot_S4096x128_S128x4096_S4096x4096_1_0_0_1_n_n none un (transpose S128x4096 [1, 0] vn transposes_S4096x128_S128x4096_1_0))
    (broadcastInDim S4096x4096 ![0, 1] bcast_S1x4096_S4096x4096_0_1 (broadcastInDim S1x4096 ![1] bcast_S4096_S1x4096_1 l))

def fin (I : IVec S16384x2 32) (s : FVec F S4096x4096 .f32) : FVec F S4096x4 .f32 :=
  shapeCast S4096x4 (Host.divf (Host.gather gather_S4096x4096_S16384x2_S16384_n_01_n_n_01_1_11 s I)
    (broadcastInDim S16384 ![] bcast_S_S16384 (constant S_ .f32 0x3F800000#32))) shapeCasts_S16384_S4096x4

/-- The program's result from its fourteen arguments and the table of pairs. -/
def out (I : IVec S16384x2 32) (a0 a1 : IVec S4096x4 32) (a2 : IVec S4096 32) (a3 a4 : FVec F S4x100000x64 .f32) (a5 : FVec F S100000 .f32)
    (a6 : FVec F S256x256 .f32) (a7 : FVec F S256 .f32) (a8 : FVec F S256x128 .f32) (a9 : FVec F S128 .f32)
    (a10 : FVec F S256x256 .f32) (a11 : FVec F S256 .f32) (a12 : FVec F S256x128 .f32) (a13 : FVec F S128 .f32) : FVec F S4096x4 .f32 :=
  fin I (scores (unit (mlp (embed a3 a0) a6 a7 a8 a9)) (unit (mlp (embed a4 a1) a10 a11 a12 a13)) (logsw a5 a2))

end Cert.ReferenceIdeal.Stages

end
-- ==== Proof.RefRun.lean ====
/-
  The reference program's run, read back. @main is a pure host program — 107 statements, seven of them calls of
  outlined functions (two rectifiers twice each, a row norm twice, a floored remainder that itself calls a selection) —
  and so one straight line of 142 array operations once each call's body is written at the call over the call's own
  buffers. Every weakly fair execution of that line terminates with each buffer at the fold of the operations over the
  launch contents (`run_seq`); read stage by stage, the result buffer then holds the composition of the stage functions
  (embedding lookup, two-layer perceptron, row normalization, log-weights, score matrix, picked entries) of the arguments,
  and no argument buffer is written.
-/
import proofs.«132451_j36069135352387_1_alg».proof.Proof.Gen.ReferenceIdeal
import proofs.«132451_j36069135352387_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation whose one written buffer is among a list of references writes inside that list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The operations, in eleven stretches that follow the stages -/

/-- Operations 1 … 12 of @main, the outlined functions' bodies written at their calls over the calls' buffer records. -/
def w1 : List (HloOp τ sig (Elt F)) :=
  [ nullary main_c (constantI S_ 32 0#32),
    unary main_c main_v0 (broadcastInDim S4096x4 ![] bcast_S_S4096x4 : (⟨S_, .i32⟩ : BufTy).Contents (Elt F) → (⟨S4096x4, .i32⟩ : BufTy).Contents (Elt F)),
    binary main_arg0 main_v0 main_v1 (cmpi .slt : (⟨S4096x4, .i32⟩ : BufTy).Contents (Elt F) → (⟨S4096x4, .i32⟩ : BufTy).Contents (Elt F) → (⟨S4096x4, .i1⟩ : BufTy).Contents (Elt F)),
    nullary main_c_0 (constantI S_ 32 100000#32),
    unary main_c_0 main_v2 (broadcastInDim S4096x4 ![] bcast_S_S4096x4 : (⟨S_, .i32⟩ : BufTy).Contents (Elt F) → (⟨S4096x4, .i32⟩ : BufTy).Contents (Elt F)),
    binary main_arg0 main_v2 main_v3 (addi : (⟨S4096x4, .i32⟩ : BufTy).Contents (Elt F) → (⟨S4096x4, .i32⟩ : BufTy).Contents (Elt F) → (⟨S4096x4, .i32⟩ : BufTy).Contents (Elt F)),
    ternary main_v1 main_v3 main_arg0 main_v4 (select : (⟨S4096x4, .i1⟩ : BufTy).Contents (Elt F) → (⟨S4096x4, .i32⟩ : BufTy).Contents (Elt F) → (⟨S4096x4, .i32⟩ : BufTy).Contents (Elt F) → (⟨S4096x4, .i32⟩ : BufTy).Contents (Elt F)),
    unary main_v4 main_v5 ((transpose S4x4096 [1, 0] · transposes_S4096x4_S4x4096_1_0) : (⟨S4096x4, .i32⟩ : BufTy).Contents (Elt F) → (⟨S4x4096, .i32⟩ : BufTy).Contents (Elt F)),
    unary main_v5 main_v6 (broadcastInDim S4x4096x1 ![0, 1] bcast_S4x4096_S4x4096x1_0_1 : (⟨S4x4096, .i32⟩ : BufTy).Contents (Elt F) → (⟨S4x4096x1, .i32⟩ : BufTy).Contents (Elt F)),
    binary main_arg3 main_v6 main_v7 ((fun x i => Host.gather gather_S4x100000x64_S4x4096x1_S4x4096x64_2_1_0_0_1_2_1164 x i) : (⟨S4x100000x64, .f32⟩ : BufTy).Contents (Elt F) → (⟨S4x4096x1, .i32⟩ : BufTy).Contents (Elt F) → (⟨S4x4096x64, .f32⟩ : BufTy).Contents (Elt F)),
    unary main_v7 main_v8 ((transpose S4096x4x64 [1, 0, 2] · transposes_S4x4096x64_S4096x4x64_1_0_2) : (⟨S4x4096x64, .f32⟩ : BufTy).Contents (Elt F) → (⟨S4096x4x64, .f32⟩ : BufTy).Contents (Elt F)),
    reshape main_v8 main_v9 rfl shapeCasts_S4096x4x64_S4096x256 ]

/-- The buffers those operations write. -/
abbrev w1_W : List (Ref sig .tc) := [main_c, main_v0, main_v1, main_c_0, main_v2, main_v3, main_v4, main_v5, main_v6, main_v7, main_v8, main_v9]

theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., unary_bufs_sub .., reshape_bufs_sub ..⟩

theorem w1_fresh : (w1 : List (HloOp τ sig (Elt F))).Forall fun op => op.fresh = ∅ :=
  ⟨rfl, rfl, rfl, rfl, rfl, rfl, rfl, rfl, rfl, rfl, rfl, rfl⟩

theorem w1_writes : (w1 : List (HloOp τ sig (Elt F))).Forall fun op => op.writes ⊆ (w1_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w1_keep (X : Valuation τ sig (Elt F)) (r : Ref sig .tc) (h : r ∉ w1_W) :
    after w1 X (no_index (Proc.devRef .tc r)) = X (Proc.devRef .tc r) :=
  after_of_writes_sub w1 X w1_writes h

/-- Operations 13 … 26 of @main, the outlined functions' bodies written at their calls over the calls' buffer records. -/
def w2 : List (HloOp τ sig (Elt F)) :=
  [ binary main_v9 main_arg6 main_v10 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg7 main_v11 (broadcastInDim S1x256 ![1] bcast_S256_S1x256_1 : (⟨S256, .f32⟩ : BufTy).Contents (Elt F) → (⟨S1x256, .f32⟩ : BufTy).Contents (Elt F)),
    unary main_v11 main_v12 (broadcastInDim S4096x256 ![0, 1] bcast_S1x256_S4096x256_0_1 : (⟨S1x256, .f32⟩ : BufTy).Contents (Elt F) → (⟨S4096x256, .f32⟩ : BufTy).Contents (Elt F)),
    binary main_v10 main_v12 main_v13 (addf : (⟨S4096x256, .f32⟩ : BufTy).Contents (Elt F) → (⟨S4096x256, .f32⟩ : BufTy).Contents (Elt F) → (⟨S4096x256, .f32⟩ : BufTy).Contents (Elt F)),
    TRef.nullary main_call0.cst (constant S_ .f32 0x00000000#32),
    TRef.unary main_call0.cst main_call0.v0 (broadcastInDim S4096x256 ![] bcast_S_S4096x256),
    TRef.binary (.of main_v13 : TRef sig ⟨S4096x256, .f32⟩) main_call0.v0 main_call0.v1 maximumf,
    binary main_v14 main_arg8 main_v15 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg9 main_v16 (broadcastInDim S1x128 ![1] bcast_S128_S1x128_1 : (⟨S128, .f32⟩ : BufTy).Contents (Elt F) → (⟨S1x128, .f32⟩ : BufTy).Contents (Elt F)),
    unary main_v16 main_v17 (broadcastInDim S4096x128 ![0, 1] bcast_S1x128_S4096x128_0_1 : (⟨S1x128, .f32⟩ : BufTy).Contents (Elt F) → (⟨S4096x128, .f32⟩ : BufTy).Contents (Elt F)),
    binary main_v15 main_v17 main_v18 (addf : (⟨S4096x128, .f32⟩ : BufTy).Contents (Elt F) → (⟨S4096x128, .f32⟩ : BufTy).Contents (Elt F) → (⟨S4096x128, .f32⟩ : BufTy).Contents (Elt F)),
    TRef.nullary main_call1.cst (constant S_ .f32 0x00000000#32),
    TRef.unary main_call1.cst main_call1.v0 (broadcastInDim S4096x128 ![] bcast_S_S4096x128),
    TRef.binary (.of main_v18 : TRef sig ⟨S4096x128, .f32⟩) main_call1.v0 main_call1.v1 maximumf ]

/-- The buffers those operations write. -/
abbrev w2_W : List (Ref sig .tc) := [main_v10, main_v11, main_v12, main_v13, main_call0_cst, main_call0_v0, main_v14, main_v15, main_v16, main_v17, main_v18, main_call1_cst, main_call1_v0, main_v19]

theorem w2_sub : (w2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem w2_fresh : (w2 : List (HloOp τ sig (Elt F))).Forall fun op => op.fresh = ∅ :=
  ⟨rfl, rfl, rfl, rfl, rfl, rfl, rfl, rfl, rfl, rfl, rfl, rfl, rfl, rfl⟩

theorem w2_writes : (w2 : List (HloOp τ sig (Elt F))).Forall fun op => op.writes ⊆ (w2_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w2_keep (X : Valuation τ sig (Elt F)) (r : Ref sig .tc) (h : r ∉ w2_W) :
    after w2 X (no_index (Proc.devRef .tc r)) = X (Proc.devRef .tc r) :=
  after_of_writes_sub w2 X w2_writes h

/-- Operations 27 … 38 of @main, the outlined functions' bodies written at their calls over the calls' buffer records. -/
def w3 : List (HloOp τ sig (Elt F)) :=
  [ nullary main_c_1 (constantI S_ 32 0#32),
    unary main_c_1 main_v20 (broadcastInDim S4096x4 ![] bcast_S_S4096x4 : (⟨S_, .i32⟩ : BufTy).Contents (Elt F) → (⟨S4096x4, .i32⟩ : BufTy).Contents (Elt F)),
    binary main_arg1 main_v20 main_v21 (cmpi .slt : (⟨S4096x4, .i32⟩ : BufTy).Contents (Elt F) → (⟨S4096x4, .i32⟩ : BufTy).Contents (Elt F) → (⟨S4096x4, .i1⟩ : BufTy).Contents (Elt F)),
    nullary main_c_2 (constantI S_ 32 100000#32),
    unary main_c_2 main_v22 (broadcastInDim S4096x4 ![] bcast_S_S4096x4 : (⟨S_, .i32⟩ : BufTy).Contents (Elt F) → (⟨S4096x4, .i32⟩ : BufTy).Contents (Elt F)),
    binary main_arg1 main_v22 main_v23 (addi : (⟨S4096x4, .i32⟩ : BufTy).Contents (Elt F) → (⟨S4096x4, .i32⟩ : BufTy).Contents (Elt F) → (⟨S4096x4, .i32⟩ : BufTy).Contents (Elt F)),
    ternary main_v21 main_v23 main_arg1 main_v24 (select : (⟨S4096x4, .i1⟩ : BufTy).Contents (Elt F) → (⟨S4096x4, .i32⟩ : BufTy).Contents (Elt F) → (⟨S4096x4, .i32⟩ : BufTy).Contents (Elt F) → (⟨S4096x4, .i32⟩ : BufTy).Contents (Elt F)),
    unary main_v24 main_v25 ((transpose S4x4096 [1, 0] · transposes_S4096x4_S4x4096_1_0) : (⟨S4096x4, .i32⟩ : BufTy).Contents (Elt F) → (⟨S4x4096, .i32⟩ : BufTy).Contents (Elt F)),
    unary main_v25 main_v26 (broadcastInDim S4x4096x1 ![0, 1] bcast_S4x4096_S4x4096x1_0_1 : (⟨S4x4096, .i32⟩ : BufTy).Contents (Elt F) → (⟨S4x4096x1, .i32⟩ : BufTy).Contents (Elt F)),
    binary main_arg4 main_v26 main_v27 ((fun x i => Host.gather gather_S4x100000x64_S4x4096x1_S4x4096x64_2_1_0_0_1_2_1164 x i) : (⟨S4x100000x64, .f32⟩ : BufTy).Contents (Elt F) → (⟨S4x4096x1, .i32⟩ : BufTy).Contents (Elt F) → (⟨S4x4096x64, .f32⟩ : BufTy).Contents (Elt F)),
    unary main_v27 main_v28 ((transpose S4096x4x64 [1, 0, 2] · transposes_S4x4096x64_S4096x4x64_1_0_2) : (⟨S4x4096x64, .f32⟩ : BufTy).Contents (Elt F) → (⟨S4096x4x64, .f32⟩ : BufTy).Contents (Elt F)),
    reshape main_v28 main_v29 rfl shapeCasts_S4096x4x64_S4096x256 ]

/-- The buffers those operations write. -/
abbrev w3_W : List (Ref sig .tc) := [main_c_1, main_v20, main_v21, main_c_2, main_v22, main_v23, main_v24, main_v25, main_v26, main_v27, main_v28, main_v29]

theorem w3_sub : (w3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., unary_bufs_sub .., reshape_bufs_sub ..⟩

theorem w3_fresh : (w3 : List (HloOp τ sig (Elt F))).Forall fun op => op.fresh = ∅ :=
  ⟨rfl, rfl, rfl, rfl, rfl, rfl, rfl, rfl, rfl, rfl, rfl, rfl⟩

theorem w3_writes : (w3 : List (HloOp τ sig (Elt F))).Forall fun op => op.writes ⊆ (w3_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w3_keep (X : Valuation τ sig (Elt F)) (r : Ref sig .tc) (h : r ∉ w3_W) :
    after w3 X (no_index (Proc.devRef .tc r)) = X (Proc.devRef .tc r) :=
  after_of_writes_sub w3 X w3_writes h

/-- Operations 39 … 52 of @main, the outlined functions' bodies written at their calls over the calls' buffer records. -/
def w4 : List (HloOp τ sig (Elt F)) :=
  [ binary main_v29 main_arg10 main_v30 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg11 main_v31 (broadcastInDim S1x256 ![1] bcast_S256_S1x256_1 : (⟨S256, .f32⟩ : BufTy).Contents (Elt F) → (⟨S1x256, .f32⟩ : BufTy).Contents (Elt F)),
    unary main_v31 main_v32 (broadcastInDim S4096x256 ![0, 1] bcast_S1x256_S4096x256_0_1 : (⟨S1x256, .f32⟩ : BufTy).Contents (Elt F) → (⟨S4096x256, .f32⟩ : BufTy).Contents (Elt F)),
    binary main_v30 main_v32 main_v33 (addf : (⟨S4096x256, .f32⟩ : BufTy).Contents (Elt F) → (⟨S4096x256, .f32⟩ : BufTy).Contents (Elt F) → (⟨S4096x256, .f32⟩ : BufTy).Contents (Elt F)),
    TRef.nullary main_call2.cst (constant S_ .f32 0x00000000#32),
    TRef.unary main_call2.cst main_call2.v0 (broadcastInDim S4096x256 ![] bcast_S_S4096x256),
    TRef.binary (.of main_v33 : TRef sig ⟨S4096x256, .f32⟩) main_call2.v0 main_call2.v1 maximumf,
    binary main_v34 main_arg12 main_v35 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg13 main_v36 (broadcastInDim S1x128 ![1] bcast_S128_S1x128_1 : (⟨S128, .f32⟩ : BufTy).Contents (Elt F) → (⟨S1x128, .f32⟩ : BufTy).Contents (Elt F)),
    unary main_v36 main_v37 (broadcastInDim S4096x128 ![0, 1] bcast_S1x128_S4096x128_0_1 : (⟨S1x128, .f32⟩ : BufTy).Contents (Elt F) → (⟨S4096x128, .f32⟩ : BufTy).Contents (Elt F)),
    binary main_v35 main_v37 main_v38 (addf : (⟨S4096x128, .f32⟩ : BufTy).Contents (Elt F) → (⟨S4096x128, .f32⟩ : BufTy).Contents (Elt F) → (⟨S4096x128, .f32⟩ : BufTy).Contents (Elt F)),
    TRef.nullary main_call3.cst (constant S_ .f32 0x00000000#32),
    TRef.unary main_call3.cst main_call3.v0 (broadcastInDim S4096x128 ![] bcast_S_S4096x128),
    TRef.binary (.of main_v38 : TRef sig ⟨S4096x128, .f32⟩) main_call3.v0 main_call3.v1 maximumf ]

/-- The buffers those operations write. -/
abbrev w4_W : List (Ref sig .tc) := [main_v30, main_v31, main_v32, main_v33, main_call2_cst, main_call2_v0, main_v34, main_v35, main_v36, main_v37, main_v38, main_call3_cst, main_call3_v0, main_v39]

theorem w4_sub : (w4 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem w4_fresh : (w4 : List (HloOp τ sig (Elt F))).Forall fun op => op.fresh = ∅ :=
  ⟨rfl, rfl, rfl, rfl, rfl, rfl, rfl, rfl, rfl, rfl, rfl, rfl, rfl, rfl⟩

theorem w4_writes : (w4 : List (HloOp τ sig (Elt F))).Forall fun op => op.writes ⊆ (w4_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w4_keep (X : Valuation τ sig (Elt F)) (r : Ref sig .tc) (h : r ∉ w4_W) :
    after w4 X (no_index (Proc.devRef .tc r)) = X (Proc.devRef .tc r) :=
  after_of_writes_sub w4 X w4_writes h

/-- Operations 53 … 62 of @main, the outlined functions' bodies written at their calls over the calls' buffer records. -/
def w5 : List (HloOp τ sig (Elt F)) :=
  [ TRef.binary (.of main_v19 : TRef sig ⟨S4096x128, .f32⟩) (.of main_v19 : TRef sig ⟨S4096x128, .f32⟩) main_call4.v0 mulf,
    TRef.nullary main_call4.cst (constant S_ .f32 0x00000000#32),
    TRef.binary main_call4.v0 main_call4.cst main_call4.v1 (fun x v => Host.reduceAdd x v reducesTo_S4096x128_S4096_d1 h_S_),
    TRef.unary main_call4.v1 main_call4.v2 (broadcastInDim S4096x1 ![0] bcast_S4096_S4096x1_0),
    TRef.unary main_call4.v2 main_call4.v3 Host.sqrt,
    nullary main_cst (constant S_ .f32 0x322BCC77#32),
    unary main_cst main_v41 (broadcastInDim S4096x1 ![] bcast_S_S4096x1 : (⟨S_, .f32⟩ : BufTy).Contents (Elt F) → (⟨S4096x1, .f32⟩ : BufTy).Contents (Elt F)),
    binary main_v40 main_v41 main_v42 (maximumf : (⟨S4096x1, .f32⟩ : BufTy).Contents (Elt F) → (⟨S4096x1, .f32⟩ : BufTy).Contents (Elt F) → (⟨S4096x1, .f32⟩ : BufTy).Contents (Elt F)),
    unary main_v42 main_v43 (broadcastInDim S4096x128 ![0, 1] bcast_S4096x1_S4096x128_0_1 : (⟨S4096x1, .f32⟩ : BufTy).Contents (Elt F) → (⟨S4096x128, .f32⟩ : BufTy).Contents (Elt F)),
    binary main_v19 main_v43 main_v44 (Host.divf : (⟨S4096x128, .f32⟩ : BufTy).Contents (Elt F) → (⟨S4096x128, .f32⟩ : BufTy).Contents (Elt F) → (⟨S4096x128, .f32⟩ : BufTy).Contents (Elt F)) ]

/-- The buffers those operations write. -/
abbrev w5_W : List (Ref sig .tc) := [main_call4_v0, main_call4_cst, main_call4_v1, main_call4_v2, main_v40, main_cst, main_v41, main_v42, main_v43, main_v44]

theorem w5_sub : (w5 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem w5_fresh : (w5 : List (HloOp τ sig (Elt F))).Forall fun op => op.fresh = ∅ :=
  ⟨rfl, rfl, rfl, rfl, rfl, rfl, rfl, rfl, rfl, rfl⟩

theorem w5_writes : (w5 : List (HloOp τ sig (Elt F))).Forall fun op => op.writes ⊆ (w5_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w5_keep (X : Valuation τ sig (Elt F)) (r : Ref sig .tc) (h : r ∉ w5_W) :
    after w5 X (no_index (Proc.devRef .tc r)) = X (Proc.devRef .tc r) :=
  after_of_writes_sub w5 X w5_writes h

/-- Operations 63 … 72 of @main, the outlined functions' bodies written at their calls over the calls' buffer records. -/
def w6 : List (HloOp τ sig (Elt F)) :=
  [ TRef.binary (.of main_v39 : TRef sig ⟨S4096x128, .f32⟩) (.of main_v39 : TRef sig ⟨S4096x128, .f32⟩) main_call5.v0 mulf,
    TRef.nullary main_call5.cst (constant S_ .f32 0x00000000#32),
    TRef.binary main_call5.v0 main_call5.cst main_call5.v1 (fun x v => Host.reduceAdd x v reducesTo_S4096x128_S4096_d1 h_S_),
    TRef.unary main_call5.v1 main_call5.v2 (broadcastInDim S4096x1 ![0] bcast_S4096_S4096x1_0),
    TRef.unary main_call5.v2 main_call5.v3 Host.sqrt,
    nullary main_cst_3 (constant S_ .f32 0x322BCC77#32),
    unary main_cst_3 main_v46 (broadcastInDim S4096x1 ![] bcast_S_S4096x1 : (⟨S_, .f32⟩ : BufTy).Contents (Elt F) → (⟨S4096x1, .f32⟩ : BufTy).Contents (Elt F)),
    binary main_v45 main_v46 main_v47 (maximumf : (⟨S4096x1, .f32⟩ : BufTy).Contents (Elt F) → (⟨S4096x1, .f32⟩ : BufTy).Contents (Elt F) → (⟨S4096x1, .f32⟩ : BufTy).Contents (Elt F)),
    unary main_v47 main_v48 (broadcastInDim S4096x128 ![0, 1] bcast_S4096x1_S4096x128_0_1 : (⟨S4096x1, .f32⟩ : BufTy).Contents (Elt F) → (⟨S4096x128, .f32⟩ : BufTy).Contents (Elt F)),
    binary main_v39 main_v48 main_v49 (Host.divf : (⟨S4096x128, .f32⟩ : BufTy).Contents (Elt F) → (⟨S4096x128, .f32⟩ : BufTy).Contents (Elt F) → (⟨S4096x128, .f32⟩ : BufTy).Contents (Elt F)) ]

/-- The buffers those operations write. -/
abbrev w6_W : List (Ref sig .tc) := [main_call5_v0, main_call5_cst, main_call5_v1, main_call5_v2, main_v45, main_cst_3, main_v46, main_v47, main_v48, main_v49]

theorem w6_sub : (w6 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem w6_fresh : (w6 : List (HloOp τ sig (Elt F))).Forall fun op => op.fresh = ∅ :=
  ⟨rfl, rfl, rfl, rfl, rfl, rfl, rfl, rfl, rfl, rfl⟩

theorem w6_writes : (w6 : List (HloOp τ sig (Elt F))).Forall fun op => op.writes ⊆ (w6_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w6_keep (X : Valuation τ sig (Elt F)) (r : Ref sig .tc) (h : r ∉ w6_W) :
    after w6 X (no_index (Proc.devRef .tc r)) = X (Proc.devRef .tc r) :=
  after_of_writes_sub w6 X w6_writes h

/-- Operations 73 … 74 of @main, the outlined functions' bodies written at their calls over the calls' buffer records. -/
def w7 : List (HloOp τ sig (Elt F)) :=
  [ unary main_v49 main_v50 ((transpose S128x4096 [1, 0] · transposes_S4096x128_S128x4096_1_0) : (⟨S4096x128, .f32⟩ : BufTy).Contents (Elt F) → (⟨S128x4096, .f32⟩ : BufTy).Contents (Elt F)),
    binary main_v44 main_v50 main_v51 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)) ]

/-- The buffers those operations write. -/
abbrev w7_W : List (Ref sig .tc) := [main_v50, main_v51]

theorem w7_sub : (w7 : List (HloOp τ sig (Elt F))).Forall fun op => op.bufs ⊆ tcRefs τ sig :=
  ⟨unary_bufs_sub .., binary_bufs_sub ..⟩

theorem w7_fresh : (w7 : List (HloOp τ sig (Elt F))).Forall fun op => op.fresh = ∅ :=
  ⟨rfl, rfl⟩

theorem w7_writes : (w7 : List (HloOp τ sig (Elt F))).Forall fun op => op.writes ⊆ (w7_W.map (Proc.devRef (τ := τ) .tc)).toFinset :=
  ⟨writes_sub_of_mem (by decide), writes_sub_of_mem (by decide)⟩

/-- A buffer none of those operations writes keeps its contents through them. -/
theorem w7_keep (X : Valuation τ sig (Elt F)) (r : Ref sig .tc) (h : r ∉ w7_W) :
    after w7 X (no_index (Proc.devRef .tc r)) = X (Proc.devRef .tc r) :=
  after_of_writes_sub w7 X w7_writes h

/-- Operations 75 … 76 of @main, the outlined functions' bodies written at their calls over the calls' buffer records. -/
def w8a : List (HloOp τ sig (Elt F)) :=
  [ nullary main_c_4 (constantI S_ 32 0#32),
    unary main_c_4 main_v52 (broadcastInDim S4096 ![] bcast_S_S4096 : (⟨S_, .i32⟩ : BufTy).Contents (Elt F) → (⟨S4096, .i32⟩ : BufTy).Contents (Elt F)) ]

/-- The buffers those operations write. -/
abbrev w8a_W : List (Ref sig .tc) := [main_c_4, main_v52]

theorem w8a_sub : (w8a : List (HloOp τ sig (Elt F))).Forall fun op => op.bufs ⊆ tcRefs τ sig :=
  ⟨nullary_bufs_sub .., unary_bufs_sub ..⟩

theorem w8a_fresh : (w8a : List (HloOp τ sig (Elt F))).Forall fun op => op.fresh = ∅ :=
  ⟨rfl, rfl⟩

theorem w8a_writes : (w8a : List (HloOp τ sig (Elt F))).Forall fun op => op.writes ⊆ (w8a_W.map (Proc.devRef (τ := τ) .tc)).toFinset :=
  ⟨writes_sub_of_mem (by decide), writes_sub_of_mem (by decide)⟩

/-- A buffer none of those operations writes keeps its contents through them. -/
theorem w8a_keep (X : Valuation τ sig (Elt F)) (r : Ref sig .tc) (h : r ∉ w8a_W) :
    after w8a X (no_index (Proc.devRef .tc r)) = X (Proc.devRef .tc r) :=
  after_of_writes_sub w8a X w8a_writes h

/-- Operations 77 … 84 of @main, the outlined functions' bodies written at their calls over the calls' buffer records. -/
def w8b : List (HloOp τ sig (Elt F)) :=
  [ binary main_arg2 main_v52 main_v53 (cmpi .slt : (⟨S4096, .i32⟩ : BufTy).Contents (Elt F) → (⟨S4096, .i32⟩ : BufTy).Contents (Elt F) → (⟨S4096, .i1⟩ : BufTy).Contents (Elt F)),
    nullary main_c_5 (constantI S_ 32 100000#32),
    unary main_c_5 main_v54 (broadcastInDim S4096 ![] bcast_S_S4096 : (⟨S_, .i32⟩ : BufTy).Contents (Elt F) → (⟨S4096, .i32⟩ : BufTy).Contents (Elt F)),
    binary main_arg2 main_v54 main_v55 (addi : (⟨S4096, .i32⟩ : BufTy).Contents (Elt F) → (⟨S4096, .i32⟩ : BufTy).Contents (Elt F) → (⟨S4096, .i32⟩ : BufTy).Contents (Elt F)),
    ternary main_v53 main_v55 main_arg2 main_v56 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v56 main_v57 (broadcastInDim S4096x1 ![0] bcast_S4096_S4096x1_0 : (⟨S4096, .i32⟩ : BufTy).Contents (Elt F) → (⟨S4096x1, .i32⟩ : BufTy).Contents (Elt F)),
    binary main_arg5 main_v57 main_v58 ((fun x i => Host.gather gather_S100000_S4096x1_S4096_n_0_n_n_0_1_1 x i) : (⟨S100000, .f32⟩ : BufTy).Contents (Elt F) → (⟨S4096x1, .i32⟩ : BufTy).Contents (Elt F) → (⟨S4096, .f32⟩ : BufTy).Contents (Elt F)),
    unary main_v58 main_v59 (Host.log : (⟨S4096, .f32⟩ : BufTy).Contents (Elt F) → (⟨S4096, .f32⟩ : BufTy).Contents (Elt F)) ]

/-- The buffers those operations write. -/
abbrev w8b_W : List (Ref sig .tc) := [main_v53, main_c_5, main_v54, main_v55, main_v56, main_v57, main_v58, main_v59]

theorem w8b_sub : (w8b : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub ..⟩

theorem w8b_fresh : (w8b : List (HloOp τ sig (Elt F))).Forall fun op => op.fresh = ∅ :=
  ⟨rfl, rfl, rfl, rfl, rfl, rfl, rfl, rfl⟩

theorem w8b_writes : (w8b : List (HloOp τ sig (Elt F))).Forall fun op => op.writes ⊆ (w8b_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w8b_keep (X : Valuation τ sig (Elt F)) (r : Ref sig .tc) (h : r ∉ w8b_W) :
    after w8b X (no_index (Proc.devRef .tc r)) = X (Proc.devRef .tc r) :=
  after_of_writes_sub w8b X w8b_writes h

/-- Operations 85 … 87 of @main, the outlined functions' bodies written at their calls over the calls' buffer records. -/
def w9 : List (HloOp τ sig (Elt F)) :=
  [ unary main_v59 main_v60 (broadcastInDim S1x4096 ![1] bcast_S4096_S1x4096_1 : (⟨S4096, .f32⟩ : BufTy).Contents (Elt F) → (⟨S1x4096, .f32⟩ : BufTy).Contents (Elt F)),
    unary main_v60 main_v61 (broadcastInDim S4096x4096 ![0, 1] bcast_S1x4096_S4096x4096_0_1 : (⟨S1x4096, .f32⟩ : BufTy).Contents (Elt F) → (⟨S4096x4096, .f32⟩ : BufTy).Contents (Elt F)),
    binary main_v51 main_v61 main_v62 (subf : (⟨S4096x4096, .f32⟩ : BufTy).Contents (Elt F) → (⟨S4096x4096, .f32⟩ : BufTy).Contents (Elt F) → (⟨S4096x4096, .f32⟩ : BufTy).Contents (Elt F)) ]

/-- The buffers those operations write. -/
abbrev w9_W : List (Ref sig .tc) := [main_v60, main_v61, main_v62]

theorem w9_sub : (w9 : List (HloOp τ sig (Elt F))).Forall fun op => op.bufs ⊆ tcRefs τ sig :=
  ⟨unary_bufs_sub .., unary_bufs_sub .., binary_bufs_sub ..⟩

theorem w9_fresh : (w9 : List (HloOp τ sig (Elt F))).Forall fun op => op.fresh = ∅ :=
  ⟨rfl, rfl, rfl⟩

theorem w9_writes : (w9 : List (HloOp τ sig (Elt F))).Forall fun op => op.writes ⊆ (w9_W.map (Proc.devRef (τ := τ) .tc)).toFinset :=
  ⟨writes_sub_of_mem (by decide), writes_sub_of_mem (by decide), writes_sub_of_mem (by decide)⟩

/-- A buffer none of those operations writes keeps its contents through them. -/
theorem w9_keep (X : Valuation τ sig (Elt F)) (r : Ref sig .tc) (h : r ∉ w9_W) :
    after w9 X (no_index (Proc.devRef .tc r)) = X (Proc.devRef .tc r) :=
  after_of_writes_sub w9 X w9_writes h

/-- Operations 88 … 98 of @main, the outlined functions' bodies written at their calls over the calls' buffer records. -/
def w10a : List (HloOp τ sig (Elt F)) :=
  [ nullary main_v63 (iotaInDim S4096 32 0),
    unary main_v63 main_v64 (broadcastInDim S4096x4 ![0] bcast_S4096_S4096x4_0 : (⟨S4096, .i32⟩ : BufTy).Contents (Elt F) → (⟨S4096x4, .i32⟩ : BufTy).Contents (Elt F)),
    reshape main_v64 main_v65 rfl shapeCasts_S4096x4_S16384,
    nullary main_v66 (iotaInDim S4096 32 0),
    unary main_v66 main_v67 (broadcastInDim S4096x1 ![0] bcast_S4096_S4096x1_0 : (⟨S4096, .i32⟩ : BufTy).Contents (Elt F) → (⟨S4096x1, .i32⟩ : BufTy).Contents (Elt F)),
    nullary main_v68 (iotaInDim S4 32 0),
    unary main_v68 main_v69 (broadcastInDim S1x4 ![1] bcast_S4_S1x4_1 : (⟨S4, .i32⟩ : BufTy).Contents (Elt F) → (⟨S1x4, .i32⟩ : BufTy).Contents (Elt F)),
    unary main_v67 main_v70 (broadcastInDim S4096x4 ![0, 1] bcast_S4096x1_S4096x4_0_1 : (⟨S4096x1, .i32⟩ : BufTy).Contents (Elt F) → (⟨S4096x4, .i32⟩ : BufTy).Contents (Elt F)),
    unary main_v69 main_v71 (broadcastInDim S4096x4 ![0, 1] bcast_S1x4_S4096x4_0_1 : (⟨S1x4, .i32⟩ : BufTy).Contents (Elt F) → (⟨S4096x4, .i32⟩ : BufTy).Contents (Elt F)),
    binary main_v70 main_v71 main_v72 (addi : (⟨S4096x4, .i32⟩ : BufTy).Contents (Elt F) → (⟨S4096x4, .i32⟩ : BufTy).Contents (Elt F) → (⟨S4096x4, .i32⟩ : BufTy).Contents (Elt F)),
    nullary main_c_6 (constantI S_ 32 4096#32) ]

/-- The buffers those operations write. -/
abbrev w10a_W : List (Ref sig .tc) := [main_v63, main_v64, main_v65, main_v66, main_v67, main_v68, main_v69, main_v70, main_v71, main_v72, main_c_6]

theorem w10a_sub : (w10a : List (HloOp τ sig (Elt F))).Forall fun op => op.bufs ⊆ tcRefs τ sig :=
  ⟨nullary_bufs_sub .., unary_bufs_sub .., reshape_bufs_sub .., nullary_bufs_sub .., unary_bufs_sub .., nullary_bufs_sub .., unary_bufs_sub .., unary_bufs_sub .., unary_bufs_sub .., binary_bufs_sub .., nullary_bufs_sub ..⟩

theorem w10a_fresh : (w10a : List (HloOp τ sig (Elt F))).Forall fun op => op.fresh = ∅ :=
  ⟨rfl, rfl, rfl, rfl, rfl, rfl, rfl, rfl, rfl, rfl, rfl⟩

theorem w10a_writes : (w10a : List (HloOp τ sig (Elt F))).Forall fun op => op.writes ⊆ (w10a_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w10a_keep (X : Valuation τ sig (Elt F)) (r : Ref sig .tc) (h : r ∉ w10a_W) :
    after w10a X (no_index (Proc.devRef .tc r)) = X (Proc.devRef .tc r) :=
  after_of_writes_sub w10a X w10a_writes h

/-- Operations 99 … 119 of @main, the outlined functions' bodies written at their calls over the calls' buffer records. -/
def w10b : List (HloOp τ sig (Elt F)) :=
  [ TRef.unary (.of main_c_6 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S4096x4 ![] bcast_S_S4096x4),
    TRef.binary (.of main_v72 : TRef sig ⟨S4096x4, .i32⟩) main_call6.v3 main_call6.v4 Host.remsi,
    TRef.nullary main_call6.c_1 (constantI S_ 32 0#32),
    TRef.unary main_call6.c_1 main_call6.v5 (broadcastInDim S4096x4 ![] bcast_S_S4096x4),
    TRef.binary main_call6.v4 main_call6.v5 main_call6.v6 (cmpi .ne),
    TRef.nullary main_call6.c_2 (constantI S_ 32 0#32),
    TRef.unary main_call6.c_2 main_call6.v7 (broadcastInDim S4096x4 ![] bcast_S_S4096x4),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S4096x4 ![] bcast_S_S4096x4),
    TRef.binary main_call6.v8 main_call6.v10 main_call6.v11 (cmpi .ne),
    TRef.binary main_call6.v11 main_call6.v6 main_call6.v12 andi,
    TRef.unary main_call6.call0.v0 main_call6.v13 (broadcastInDim S4096x4 ![] bcast_S_S4096x4),
    TRef.binary main_call6.v4 main_call6.v13 main_call6.v14 addi,
    TRef.ternary main_call6.v12 main_call6.v14 main_call6.v4 main_call6.v15 select ]

/-- The buffers those operations write. -/
abbrev w10b_W : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v73]

theorem w10b_sub : (w10b : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem w10b_fresh : (w10b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem w10b_writes : (w10b : List (HloOp τ sig (Elt F))).Forall fun op => op.writes ⊆ (w10b_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w10b_keep (X : Valuation τ sig (Elt F)) (r : Ref sig .tc) (h : r ∉ w10b_W) :
    after w10b X (no_index (Proc.devRef .tc r)) = X (Proc.devRef .tc r) :=
  after_of_writes_sub w10b X w10b_writes h

/-- Operations 120 … 137 of @main, the outlined functions' bodies written at their calls over the calls' buffer records. -/
def w10c : List (HloOp τ sig (Elt F)) :=
  [ reshape main_v73 main_v74 rfl shapeCasts_S4096x4_S16384,
    nullary main_c_7 (constantI S_ 32 0#32),
    unary main_c_7 main_v75 (broadcastInDim S16384 ![] bcast_S_S16384 : (⟨S_, .i32⟩ : BufTy).Contents (Elt F) → (⟨S16384, .i32⟩ : BufTy).Contents (Elt F)),
    binary main_v65 main_v75 main_v76 (cmpi .slt : (⟨S16384, .i32⟩ : BufTy).Contents (Elt F) → (⟨S16384, .i32⟩ : BufTy).Contents (Elt F) → (⟨S16384, .i1⟩ : BufTy).Contents (Elt F)),
    nullary main_c_8 (constantI S_ 32 4096#32),
    unary main_c_8 main_v77 (broadcastInDim S16384 ![] bcast_S_S16384 : (⟨S_, .i32⟩ : BufTy).Contents (Elt F) → (⟨S16384, .i32⟩ : BufTy).Contents (Elt F)),
    binary main_v65 main_v77 main_v78 (addi : (⟨S16384, .i32⟩ : BufTy).Contents (Elt F) → (⟨S16384, .i32⟩ : BufTy).Contents (Elt F) → (⟨S16384, .i32⟩ : BufTy).Contents (Elt F)),
    ternary main_v76 main_v78 main_v65 main_v79 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_9 (constantI S_ 32 0#32),
    unary main_c_9 main_v80 (broadcastInDim S16384 ![] bcast_S_S16384 : (⟨S_, .i32⟩ : BufTy).Contents (Elt F) → (⟨S16384, .i32⟩ : BufTy).Contents (Elt F)),
    binary main_v74 main_v80 main_v81 (cmpi .slt : (⟨S16384, .i32⟩ : BufTy).Contents (Elt F) → (⟨S16384, .i32⟩ : BufTy).Contents (Elt F) → (⟨S16384, .i1⟩ : BufTy).Contents (Elt F)),
    nullary main_c_10 (constantI S_ 32 4096#32),
    unary main_c_10 main_v82 (broadcastInDim S16384 ![] bcast_S_S16384 : (⟨S_, .i32⟩ : BufTy).Contents (Elt F) → (⟨S16384, .i32⟩ : BufTy).Contents (Elt F)),
    binary main_v74 main_v82 main_v83 (addi : (⟨S16384, .i32⟩ : BufTy).Contents (Elt F) → (⟨S16384, .i32⟩ : BufTy).Contents (Elt F) → (⟨S16384, .i32⟩ : BufTy).Contents (Elt F)),
    ternary main_v81 main_v83 main_v74 main_v84 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v79 main_v85 (broadcastInDim S16384x1 ![0] bcast_S16384_S16384x1_0 : (⟨S16384, .i32⟩ : BufTy).Contents (Elt F) → (⟨S16384x1, .i32⟩ : BufTy).Contents (Elt F)),
    unary main_v84 main_v86 (broadcastInDim S16384x1 ![0] bcast_S16384_S16384x1_0 : (⟨S16384, .i32⟩ : BufTy).Contents (Elt F) → (⟨S16384x1, .i32⟩ : BufTy).Contents (Elt F)),
    binary main_v85 main_v86 main_v87 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)) ]

/-- The buffers those operations write. -/
abbrev w10c_W : List (Ref sig .tc) := [main_v74, main_c_7, main_v75, main_v76, main_c_8, main_v77, main_v78, main_v79, main_c_9, main_v80, main_v81, main_c_10, main_v82, main_v83, main_v84, main_v85, main_v86, main_v87]

theorem w10c_sub : (w10c : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub ..⟩

theorem w10c_fresh : (w10c : List (HloOp τ sig (Elt F))).Forall fun op => op.fresh = ∅ :=
  ⟨rfl, rfl, rfl, rfl, rfl, rfl, rfl, rfl, rfl, rfl, rfl, rfl, rfl, rfl, rfl, rfl, rfl, rfl⟩

theorem w10c_writes : (w10c : List (HloOp τ sig (Elt F))).Forall fun op => op.writes ⊆ (w10c_W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A buffer none of those operations writes keeps its contents through them. -/
theorem w10c_keep (X : Valuation τ sig (Elt F)) (r : Ref sig .tc) (h : r ∉ w10c_W) :
    after w10c X (no_index (Proc.devRef .tc r)) = X (Proc.devRef .tc r) :=
  after_of_writes_sub w10c X w10c_writes h

/-- Operations 138 … 142 of @main, the outlined functions' bodies written at their calls over the calls' buffer records. -/
def w11 : List (HloOp τ sig (Elt F)) :=
  [ binary main_v62 main_v87 main_v88 ((fun x i => Host.gather gather_S4096x4096_S16384x2_S16384_n_01_n_n_01_1_11 x i) : (⟨S4096x4096, .f32⟩ : BufTy).Contents (Elt F) → (⟨S16384x2, .i32⟩ : BufTy).Contents (Elt F) → (⟨S16384, .f32⟩ : BufTy).Contents (Elt F)),
    nullary main_cst_11 (constant S_ .f32 0x3F800000#32),
    unary main_cst_11 main_v89 (broadcastInDim S16384 ![] bcast_S_S16384 : (⟨S_, .f32⟩ : BufTy).Contents (Elt F) → (⟨S16384, .f32⟩ : BufTy).Contents (Elt F)),
    binary main_v88 main_v89 main_v90 (Host.divf : (⟨S16384, .f32⟩ : BufTy).Contents (Elt F) → (⟨S16384, .f32⟩ : BufTy).Contents (Elt F) → (⟨S16384, .f32⟩ : BufTy).Contents (Elt F)),
    reshape main_v90 main_v91 rfl shapeCasts_S16384_S4096x4 ]

/-- The buffers those operations write. -/
abbrev w11_W : List (Ref sig .tc) := [main_v88, main_cst_11, main_v89, main_v90, main_v91]

theorem w11_sub : (w11 : List (HloOp τ sig (Elt F))).Forall fun op => op.bufs ⊆ tcRefs τ sig :=
  ⟨binary_bufs_sub .., nullary_bufs_sub .., unary_bufs_sub .., binary_bufs_sub .., reshape_bufs_sub ..⟩

theorem w11_fresh : (w11 : List (HloOp τ sig (Elt F))).Forall fun op => op.fresh = ∅ :=
  ⟨rfl, rfl, rfl, rfl, rfl⟩

theorem w11_writes : (w11 : List (HloOp τ sig (Elt F))).Forall fun op => op.writes ⊆ (w11_W.map (Proc.devRef (τ := τ) .tc)).toFinset :=
  ⟨writes_sub_of_mem (by decide), writes_sub_of_mem (by decide), writes_sub_of_mem (by decide), writes_sub_of_mem (by decide), writes_sub_of_mem (by decide)⟩

/-- A buffer none of those operations writes keeps its contents through them. -/
theorem w11_keep (X : Valuation τ sig (Elt F)) (r : Ref sig .tc) (h : r ∉ w11_W) :
    after w11 X (no_index (Proc.devRef .tc r)) = X (Proc.devRef .tc r) :=
  after_of_writes_sub w11 X w11_writes h

/-! ## Two intermediate values of the score stage, named so that each window of operations is read on its own -/

/-- All pairwise inner products: `un · vnᵀ`. (@main's %50, %51.) -/
def dotT (un vn : FVec F S4096x128 .f32) : FVec F S4096x4096 .f32 :=
  Host.dotGeneral dot_S4096x128_S128x4096_S4096x4096_1_0_0_1_n_n none un (transpose S128x4096 [1, 0] vn transposes_S4096x128_S128x4096_1_0)

/-- A row vector subtracted from every row of a matrix. (@main's %60 … %62.) -/
def subRow (s : FVec F S4096x4096 .f32) (l : FVec F S4096 .f32) : FVec F S4096x4096 .f32 :=
  subf s (broadcastInDim S4096x4096 ![0, 1] bcast_S1x4096_S4096x4096_0_1 (broadcastInDim S1x4096 ![1] bcast_S4096_S1x4096_1 l))

/-- The score stage is the second applied to the first. -/
theorem scores_eq (un vn : FVec F S4096x128 .f32) (l : FVec F S4096 .f32) : subRow (dotT un vn) l = Stages.scores un vn l := rfl

/-! ## Each stage read off its operations -/

theorem w1_v9 (X : Valuation τ sig (Elt F)) :
    after w1 X (no_index (Proc.devRef .tc main_v9)) = Stages.embed (X (Proc.devRef .tc main_arg3)) (X (Proc.devRef .tc main_arg0)) := by
  simp only [w1]
  after_results_simp
  rfl

theorem w2_v19 (X : Valuation τ sig (Elt F)) :
    after w2 X (no_index (Proc.devRef .tc main_v19)) = Stages.mlp (X (Proc.devRef .tc main_v9)) (X (Proc.devRef .tc main_arg6)) (X (Proc.devRef .tc main_arg7)) (X (Proc.devRef .tc main_arg8)) (X (Proc.devRef .tc main_arg9)) := by
  simp only [w2]
  after_results_simp
  rfl

theorem w3_v29 (X : Valuation τ sig (Elt F)) :
    after w3 X (no_index (Proc.devRef .tc main_v29)) = Stages.embed (X (Proc.devRef .tc main_arg4)) (X (Proc.devRef .tc main_arg1)) := by
  simp only [w3]
  after_results_simp
  rfl

theorem w4_v39 (X : Valuation τ sig (Elt F)) :
    after w4 X (no_index (Proc.devRef .tc main_v39)) = Stages.mlp (X (Proc.devRef .tc main_v29)) (X (Proc.devRef .tc main_arg10)) (X (Proc.devRef .tc main_arg11)) (X (Proc.devRef .tc main_arg12)) (X (Proc.devRef .tc main_arg13)) := by
  simp only [w4]
  after_results_simp
  rfl

theorem w5_v44 (X : Valuation τ sig (Elt F)) :
    after w5 X (no_index (Proc.devRef .tc main_v44)) = Stages.unit (X (Proc.devRef .tc main_v19)) := by
  simp only [w5]
  after_results_simp
  rfl

theorem w6_v49 (X : Valuation τ sig (Elt F)) :
    after w6 X (no_index (Proc.devRef .tc main_v49)) = Stages.unit (X (Proc.devRef .tc main_v39)) := by
  simp only [w6]
  after_results_simp
  rfl

theorem w7_v51 (X : Valuation τ sig (Elt F)) :
    after w7 X (no_index (Proc.devRef .tc main_v51)) = dotT (X (Proc.devRef .tc main_v44)) (X (Proc.devRef .tc main_v49)) := by
  simp only [w7]
  after_results_simp
  rfl

theorem w8_v59 (X : Valuation τ sig (Elt F)) :
    after w8b (after w8a X) (no_index (Proc.devRef .tc main_v59)) = Stages.logsw (X (Proc.devRef .tc main_arg5)) (X (Proc.devRef .tc main_arg2)) := by
  simp only [w8b, w8a]
  after_results_simp
  rfl

theorem w9_v62 (X : Valuation τ sig (Elt F)) :
    after w9 X (no_index (Proc.devRef .tc main_v62)) = subRow (X (Proc.devRef .tc main_v51)) (X (Proc.devRef .tc main_v59)) := by
  simp only [w9]
  after_results_simp
  rfl

theorem w11_v91 (X : Valuation τ sig (Elt F)) :
    after w11 X (no_index (Proc.devRef .tc main_v91)) = Stages.fin (X (Proc.devRef .tc main_v87)) (X (Proc.devRef .tc main_v62)) := by
  simp only [w11]
  after_results_simp
  rfl

/-! ## @main as one line of operations, and its run -/

/-- @main's 142 operations in order (its 107 statements, each call's body written at the call). -/
abbrev ops : List (HloOp τ sig (Elt F)) := w1 ++ (w2 ++ (w3 ++ (w4 ++ (w5 ++ (w6 ++ (w7 ++ (w8a ++ (w8b ++ (w9 ++ (w10a ++ (w10b ++ (w10c ++ (w11)))))))))))))

set_option maxRecDepth 8192 in
/-- @main is that straight line: the two windows it is printed in and the outlined functions unfold, at their calls, to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨w1_sub, w2_sub, w3_sub, w4_sub, w5_sub, w6_sub, w7_sub, w8a_sub, w8b_sub, w9_sub, w10a_sub, w10b_sub, w10c_sub, w11_sub⟩

theorem ops_fresh : ∀ op ∈ (ops : List (HloOp τ sig (Elt F))), op.fresh = ∅ := by
  refine List.forall_iff_forall_mem.1 ?_
  simp only [ops, List.forall_append]
  exact ⟨w1_fresh, w2_fresh, w3_fresh, w4_fresh, w5_fresh, w6_fresh, w7_fresh, w8a_fresh, w8b_fresh, w9_fresh, w10a_fresh, w10b_fresh, w10c_fresh, w11_fresh⟩

/-- The result buffer after the whole line, from any contents: the stages composed, the table of index pairs being what the
    line leaves in its own buffer. Each stage's value is read where it is made and carried unchanged through the later
    operations, none of which writes its buffer. -/
theorem out_eq (V : Valuation τ sig (Elt F)) :
    after ops V (Proc.devRef .tc main_v91) = Stages.out (after ops V (Proc.devRef .tc main_v87)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [ops, after_append]
  simp (disch := decide) only [w11_v91, w9_v62, w8_v59, w7_v51, w6_v49, w5_v44, w4_v39, w3_v29, w2_v19, w1_v9, scores_eq,
    w1_keep, w2_keep, w3_keep, w4_keep, w5_keep, w6_keep, w7_keep, w8a_keep, w8b_keep, w9_keep, w10a_keep, w10b_keep, w10c_keep, w11_keep]
  rfl

/-- A buffer that no operation of the line writes keeps its contents. -/
theorem arg_eq (V : Valuation τ sig (Elt F)) (r : Ref sig .tc)
    (h0 : r ∉ w1_W) (h1 : r ∉ w2_W) (h2 : r ∉ w3_W) (h3 : r ∉ w4_W) (h4 : r ∉ w5_W) (h5 : r ∉ w6_W) (h6 : r ∉ w7_W) (h7 : r ∉ w8a_W) (h8 : r ∉ w8b_W) (h9 : r ∉ w9_W) (h10 : r ∉ w10a_W) (h11 : r ∉ w10b_W) (h12 : r ∉ w10c_W) (h13 : r ∉ w11_W) :
    after ops V (Proc.devRef .tc r) = V (Proc.devRef .tc r) := by
  simp only [ops, after_append]
  rw [w11_keep _ r h13, w10c_keep _ r h12, w10b_keep _ r h11, w10a_keep _ r h10, w9_keep _ r h9, w8b_keep _ r h8, w8a_keep _ r h7, w7_keep _ r h6, w6_keep _ r h5, w5_keep _ r h4, w4_keep _ r h3, w3_keep _ r h2, w2_keep _ r h1, w1_keep _ r h0]

/-- On every device, for any float values, from any memory with zero counters: every weakly fair execution of
    @main terminates with the result buffer at the stages' composition over the arguments' launch contents — the table of
    index pairs being the contents the line leaves in its buffer — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = Stages.out (after ops (launchContents m c) (Proc.devRef .tc main_v87)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v91).trans (out_eq _),
      (h c main_arg0).trans (arg_eq _ main_arg0 (by decide) (by decide) (by decide) (by decide) (by decide) (by decide) (by decide) (by decide) (by decide) (by decide) (by decide) (by decide) (by decide) (by decide)),
      (h c main_arg1).trans (arg_eq _ main_arg1 (by decide) (by decide) (by decide) (by decide) (by decide) (by decide) (by decide) (by decide) (by decide) (by decide) (by decide) (by decide) (by decide) (by decide)),
      (h c main_arg2).trans (arg_eq _ main_arg2 (by decide) (by decide) (by decide) (by decide) (by decide) (by decide) (by decide) (by decide) (by decide) (by decide) (by decide) (by decide) (by decide) (by decide)),
      (h c main_arg3).trans (arg_eq _ main_arg3 (by decide) (by decide) (by decide) (by decide) (by decide) (by decide) (by decide) (by decide) (by decide) (by decide) (by decide) (by decide) (by decide) (by decide)),
      (h c main_arg4).trans (arg_eq _ main_arg4 (by decide) (by decide) (by decide) (by decide) (by decide) (by decide) (by decide) (by decide) (by decide) (by decide) (by decide) (by decide) (by decide) (by decide)),
      (h c main_arg5).trans (arg_eq _ main_arg5 (by decide) (by decide) (by decide) (by decide) (by decide) (by decide) (by decide) (by decide) (by decide) (by decide) (by decide) (by decide) (by decide) (by decide)),
      (h c main_arg6).trans (arg_eq _ main_arg6 (by decide) (by decide) (by decide) (by decide) (by decide) (by decide) (by decide) (by decide) (by decide) (by decide) (by decide) (by decide) (by decide) (by decide)),
      (h c main_arg7).trans (arg_eq _ main_arg7 (by decide) (by decide) (by decide) (by decide) (by decide) (by decide) (by decide) (by decide) (by decide) (by decide) (by decide) (by decide) (by decide) (by decide)),
      (h c main_arg8).trans (arg_eq _ main_arg8 (by decide) (by decide) (by decide) (by decide) (by decide) (by decide) (by decide) (by decide) (by decide) (by decide) (by decide) (by decide) (by decide) (by decide)),
      (h c main_arg9).trans (arg_eq _ main_arg9 (by decide) (by decide) (by decide) (by decide) (by decide) (by decide) (by decide) (by decide) (by decide) (by decide) (by decide) (by decide) (by decide) (by decide)),
      (h c main_arg10).trans (arg_eq _ main_arg10 (by decide) (by decide) (by decide) (by decide) (by decide) (by decide) (by decide) (by decide) (by decide) (by decide) (by decide) (by decide) (by decide) (by decide)),
      (h c main_arg11).trans (arg_eq _ main_arg11 (by decide) (by decide) (by decide) (by decide) (by decide) (by decide) (by decide) (by decide) (by decide) (by decide) (by decide) (by decide) (by decide) (by decide)),
      (h c main_arg12).trans (arg_eq _ main_arg12 (by decide) (by decide) (by decide) (by decide) (by decide) (by decide) (by decide) (by decide) (by decide) (by decide) (by decide) (by decide) (by decide) (by decide)),
      (h c main_arg13).trans (arg_eq _ main_arg13 (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefRead.lean ====
/-
  The reference program's stages read at an index, on the extended reals.

  At the ideal values the host's matrix product is the sum over the contracted coordinate of the products of the entries,
  its sum along an axis is the initial value plus the sum of the entries, and its division, square root and maximum are
  the extended reals'. A broadcast in dimensions reads the operand at the coordinates its dimensions name, zero on the
  operand's unit axes. So the two dense layers followed by the normalization are, entry by entry, one tower applied to a
  row, and the score matrix is, entry by entry, an inner product of two rows minus a weight.
-/
import proofs.«132451_j36069135352387_1_alg».proof.Proof.RefStages
import proofs.«132451_j36069135352387_1_alg».proof.Proof.SpecArr
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.ReferenceIdeal.RefRead

open Cert.ReferenceIdeal Idealize.ShloMosaic Idealize.ShloMosaic.ValueIdx
open scoped BigOperators

/-! ## Broadcasts in dimensions that add or fill a unit axis, read at an index -/

section Layout
variable {α : Type}

/-- A vector of `n` entries broadcast to one row `[1, n]` along axis 1 reads, at `(u, t)`, the vector at `t`. -/
theorem broadcastInDim_a_1a_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun a => ?_
  match a with
  | ⟨0, _⟩ =>
    show t.val = if n = 1 then 0 else t.val
    split
    · have := t.isLt; omega
    · rfl

/-- A vector of `a` entries broadcast to one column `[a, 1]` along axis 0 reads, at `(i, u)`, the vector at `i`. -/
theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) fun c => ?_
  match c with
  | ⟨0, _⟩ =>
    show i.val = if a = 1 then 0 else i.val
    split
    · have := i.isLt; omega
    · rfl

/-- A one-column matrix broadcast over `b` columns reads, at `(p, c)`, the column's entry of row `p`. -/
theorem broadcastInDim_oneCol_apply {a b : ℕ} (h : (⟨2, ![a, 1]⟩ : Shape).BroadcastsInDim ⟨2, ![a, b]⟩ ![0, 1])
    (y : (⟨2, ![a, 1]⟩ : Shape).Idx → α) (p : Fin a) (c : Fin b) :
    broadcastInDim ⟨2, ![a, b]⟩ ![0, 1] h y (ix2 p c) = y (ix2 p (0 : Fin 1)) := by
  refine broadcastInDim_apply ![0, 1] h y (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The host's matrix product and its sum along the rows, read at an index -/

/-- The host's `[m, k]` by `[k, n]` product reads, at `(a, b)`, the sum over `c` of `A (a, c) * B (c, b)`. -/
theorem dotGeneral_nn_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (F := Ideal) (⟨[1], [0], [0], [1], [], [], w⟩ : DotDims _ _ _) prec A B (ix2 a b)
      = ∑ c : Fin k, A (ix2 a c) * B (ix2 c b) := by
  refine (Ideal.dotGeneral_apply _ prec _ A B (ix2 a b)).trans ?_
  rw [← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims _ _ _) k rfl rfl c
  have l2 : (⟨[1], [0], [0], [1], [], [], w⟩ : DotDims _ _ _).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims _ _ _).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The host's sum of an `[a, b]` array along its second axis, from an initial value that is zero, reads, at `p`, the
    sum of row `p`. -/
theorem hostReduceAdd_ab_a_apply {a b : ℕ} {u : Shape} (src : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (h0 : init (Shape.Idx.first hu) = 0) (p : Fin a) :
    Host.reduceAdd src init h' hu (ix1 p) = ∑ k : Fin b, src (ix2 p k) := by
  show Ideal.hostReduceAdd h' src (init (Shape.Idx.first hu)) (ix1 p) = _
  rw [Ideal.hostReduceAdd_single h' h, h0, zero_add]
  refine Finset.sum_congr rfl fun k _ => congrArg src ?_
  funext c; apply Fin.ext
  match c with
  | ⟨0, _⟩ => rfl
  | ⟨1, _⟩ => rfl

/-! ## The stages read at an index -/

/-- One dense layer of the reference followed by a maximum with zero, read at `(p, j)`:
    `relu (∑ c, X (p, c) * W (c, j) + B j)`. The bias is a vector broadcast to one row and the row broadcast down the
    rows; the zero is a scalar constant broadcast everywhere. -/
theorem hostLayer_apply {m k n : ℕ}
    (w : DotDims.WF ⟨2, ![m, k]⟩ ⟨2, ![k, n]⟩ ⟨2, ![m, n]⟩ [1] [0] [0] [1] [] [])
    (X : FVec Ideal ⟨2, ![m, k]⟩ .f32) (W : FVec Ideal ⟨2, ![k, n]⟩ .f32) (B : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (hz : (⟨0, ![]⟩ : Shape).BroadcastsInDim ⟨2, ![m, n]⟩ ![]) (p : Fin m) (j : Fin n) :
    maximumf (addf (Host.dotGeneral (F := Ideal) (⟨[1], [0], [0], [1], [], [], w⟩ : DotDims _ _ _) none X W)
        (broadcastInDim ⟨2, ![m, n]⟩ ![0, 1] h2 (broadcastInDim ⟨2, ![1, n]⟩ ![1] h1 B)))
      (broadcastInDim ⟨2, ![m, n]⟩ ![] hz (constant (F := Ideal) ⟨0, ![]⟩ .f32 0x00000000#32)) (ix2 p j)
      = Cert.Spec.relu ((∑ c : Fin k, X (ix2 p c) * W (ix2 c j)) + B (ix1 j)) := by
  unfold Cert.Spec.relu
  show max (Host.dotGeneral (F := Ideal) _ none X W (ix2 p j) + broadcastInDim _ _ _ _ (ix2 p j)) _ = _
  refine congrArg₂ max (congrArg₂ (· + ·) ?_ ?_) rfl
  · exact dotGeneral_nn_apply w none X W p j
  · exact (broadcastInDim_oneRow_apply h2 _ p j).trans (broadcastInDim_a_1a_apply h1 B 0 j)

/-- The reference's normalization, read at `(p, q)`: the entry divided by the larger of the row's Euclidean norm and the
    small constant. -/
theorem hostNormalize_apply {a b : ℕ} (V : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hc : (⟨1, ![a]⟩ : Shape).BroadcastsInDim ⟨2, ![a, 1]⟩ ![0])
    (hbr : (⟨2, ![a, 1]⟩ : Shape).BroadcastsInDim ⟨2, ![a, b]⟩ ![0, 1])
    (hz : (⟨0, ![]⟩ : Shape).BroadcastsInDim ⟨2, ![a, 1]⟩ ![])
    (e : BitVec FTy.f32.bits) (p : Fin a) (q : Fin b) :
    Host.divf V (broadcastInDim ⟨2, ![a, b]⟩ ![0, 1] hbr
        (maximumf (Host.sqrt (broadcastInDim ⟨2, ![a, 1]⟩ ![0] hc
            (Host.reduceAdd (mulf V V) (constant (F := Ideal) ⟨0, ![]⟩ .f32 0x00000000#32) h' hu)))
          (broadcastInDim ⟨2, ![a, 1]⟩ ![] hz (constant (F := Ideal) ⟨0, ![]⟩ .f32 e)))) (ix2 p q)
      = Ideal.div (V (ix2 p q)) (max (Ideal.sqrt (∑ k : Fin b, V (ix2 p k) * V (ix2 p k))) (Ideal.ofBits .f32 e)) := by
  show Ideal.div (V (ix2 p q)) (broadcastInDim _ _ _ _ (ix2 p q)) = _
  refine congrArg (Ideal.div (V (ix2 p q))) ?_
  refine (broadcastInDim_oneCol_apply hbr _ p q).trans ?_
  show max (Ideal.sqrt (broadcastInDim _ _ _ _ (ix2 p (0 : Fin 1)))) _ = _
  refine congrArg₂ max (congrArg Ideal.sqrt ?_) rfl
  refine (broadcastInDim_a_a1_apply hc _ p 0).trans ?_
  exact hostReduceAdd_ab_a_apply (mulf V V) _ h' h hu Ideal.ofBits_zero_f32 p

-- the shape facts the program states are fields of its `Facts` class
variable [Facts]
open Facts₀ Facts

/-- The two layers of the reference, read at `(p, j)`: output unit `j` of row `p`. -/
theorem mlp_apply (x : FVec Ideal S4096x256 .f32) (W1 : FVec Ideal S256x256 .f32) (b1 : FVec Ideal S256 .f32)
    (W2 : FVec Ideal S256x128 .f32) (b2 : FVec Ideal S128 .f32) (p : Fin 4096) (j : Fin 128) :
    Stages.mlp (F := Ideal) x W1 b1 W2 b2 (ix2 p j)
      = Cert.Spec.feat (fun l => x (ix2 p l)) (fun l k => W1 (ix2 l k)) (fun k => b1 (ix1 k)) (fun k j => W2 (ix2 k j))
          (fun j => b2 (ix1 j)) j := by
  unfold Stages.mlp Cert.Spec.feat
  refine (hostLayer_apply _ _ W2 b2 _ _ _ p j).trans ?_
  refine congrArg Cert.Spec.relu (congrArg (· + b2 (ix1 j)) (Finset.sum_congr rfl fun c _ => congrArg (· * W2 (ix2 c j)) ?_))
  unfold Stages.hidden Cert.Spec.hid
  exact hostLayer_apply _ x W1 b1 _ _ _ p c

/-- The reference's towers are, entry by entry, one tower applied to a row. -/
theorem unit_mlp_eq (x : FVec Ideal S4096x256 .f32) (W1 : FVec Ideal S256x256 .f32) (b1 : FVec Ideal S256 .f32)
    (W2 : FVec Ideal S256x128 .f32) (b2 : FVec Ideal S128 .f32) :
    Stages.unit (Stages.mlp (F := Ideal) x W1 b1 W2 b2) = Cert.Spec.towers x W1 b1 W2 b2 := by
  funext i
  obtain ⟨p, q, rfl⟩ : ∃ (p : Fin 4096) (q : Fin 128), i = ix2 p q := ⟨i 0, i 1, eq_ix2 i⟩
  unfold Stages.unit Cert.Spec.towers Cert.Spec.tower Cert.Spec.unitv
  refine (hostNormalize_apply _ _ (by decide) _ _ _ _ _ p q).trans ?_
  have hV := fun j : Fin 128 => mlp_apply x W1 b1 W2 b2 p j
  exact congrArg₂ Ideal.div (hV q) (congrArg₂ max (congrArg Ideal.sqrt
    (Finset.sum_congr rfl fun k _ => congrArg₂ (· * ·) (hV k) (hV k))) rfl)

/-- The reference's score matrix at `(i, j)`: the inner product of row `i` of the users and row `j` of the items (the
    items enter the product transposed), minus the weight of item `j`. -/
theorem scores_apply (un vn : FVec Ideal S4096x128 .f32) (l : FVec Ideal S4096 .f32) (i j : Fin 4096) :
    Stages.scores (F := Ideal) un vn l (ix2 i j)
      = Cert.Spec.dotRow (fun k => un (ix2 i k)) (fun k => vn (ix2 j k)) - l (ix1 j) := by
  unfold Stages.scores Cert.Spec.dotRow
  show Host.dotGeneral (F := Ideal) _ none _ _ (ix2 i j) - broadcastInDim _ _ _ _ (ix2 i j) = _
  refine congrArg₂ (· - ·) ?_ ?_
  · refine (dotGeneral_nn_apply _ none un _ i j).trans ?_
    refine Finset.sum_congr rfl fun k _ => congrArg (un (ix2 i k) * ·) ?_
    exact transpose_ix2_apply vn _ k j
  · exact (broadcastInDim_oneRow_apply _ _ i j).trans (broadcastInDim_a_1a_apply _ l 0 j)

end Cert.ReferenceIdeal.RefRead

end
-- ==== Proof.Bridge.lean ====
/-
  The two programs compute one function.

  Both gather the same feature rows and the same weights by the same host operations, so those stages agree as they stand.
  The towers agree row by row, and a score is the same inner product minus the same weight.  The kernel divides every score
  by the temperature one before the final table look-up and the reference after it; a look-up reads single entries, so the
  division passes through it unchanged.
-/
import proofs.«132451_j36069135352387_1_alg».proof.Proof.Whole
import proofs.«132451_j36069135352387_1_alg».proof.Proof.RefStages
import proofs.«132451_j36069135352387_1_alg».proof.Proof.RefRead
import proofs.«132451_j36069135352387_1_alg».proof.Proof.Gen.ReferenceIdeal
import Idealize.ShloMosaic.Lib.ValueLayout
import Idealize.ShloMosaic.Lib.KernelVsHost
import Idealize.ShloMosaic.Lib.ValueIdx

set_option maxRecDepth 16384

noncomputable section

namespace Cert.Bridge

open Idealize.ShloMosaic Idealize.ShloMosaic.ValueIdx

open Cert.ReferenceIdeal.RefRead

/-- The feature rows both programs gather. -/
theorem embed_eq (tbl : FVec Ideal Cert.KernelIdeal.S4x100000x64 .f32) (ids : IVec Cert.KernelIdeal.S4096x4 32) :
    Cert.KernelIdeal.Whole.embed tbl ids = Cert.ReferenceIdeal.Stages.embed (F := Ideal) tbl ids := rfl

/-- The logarithmic weights both programs gather; the kernel lays them out as one row. -/
theorem logw_eq (tbl : FVec Ideal Cert.KernelIdeal.S100000 .f32) (ids : IVec Cert.KernelIdeal.S4096 32) :
    Cert.KernelIdeal.Whole.logw tbl ids
      = shapeCast Cert.KernelIdeal.S1x4096 (Cert.ReferenceIdeal.Stages.logsw (F := Ideal) tbl ids) Cert.KernelIdeal.Facts₀.shapeCasts_S4096_S1x4096 := rfl

/-- Looking up a table of pairs in the kernel's score matrix (already divided by one) gives the reference's look-up
    divided by one afterwards. -/
theorem pick_eq_fin (I : IVec Cert.KernelIdeal.S16384x2 32) (UN VN : FVec Ideal Cert.KernelIdeal.S4096x128 .f32)
    (l : FVec Ideal Cert.KernelIdeal.S4096 .f32) :
    Cert.KernelIdeal.Whole.pick I
        (Cert.Spec.scores UN VN (shapeCast Cert.KernelIdeal.S1x4096 l Cert.KernelIdeal.Facts₀.shapeCasts_S4096_S1x4096))
      = Cert.ReferenceIdeal.Stages.fin (F := Ideal) I (Cert.ReferenceIdeal.Stages.scores (F := Ideal) UN VN l) := by
  unfold Cert.KernelIdeal.Whole.pick Cert.ReferenceIdeal.Stages.fin
  refine congrArg (fun v => shapeCast Cert.KernelIdeal.S4096x4 v Cert.KernelIdeal.Facts₀.shapeCasts_S16384_S4096x4) ?_
  funext p
  unfold Host.gather
  rw [broadcastInDim_constant]
  show Cert.Spec.scores UN VN _ (Cert.KernelIdeal.gather_S4096x4096_S16384x2_S16384_n_01_n_n_01_1_11.operandIdx p I)
    = Ideal.div (Cert.ReferenceIdeal.Stages.scores (F := Ideal) UN VN l
        (Cert.KernelIdeal.gather_S4096x4096_S16384x2_S16384_n_01_n_n_01_1_11.operandIdx p I)) (Ideal.ofBits .f32 0x3F800000#32)
  generalize Cert.KernelIdeal.gather_S4096x4096_S16384x2_S16384_n_01_n_n_01_1_11.operandIdx p I = q
  obtain ⟨i, j, rfl⟩ : ∃ (i : Fin 4096) (j : Fin 4096), q = ix2 i j := ⟨q 0, q 1, eq_ix2 q⟩
  refine Eq.trans ?_ (congrArg (fun x => Ideal.div x (Ideal.ofBits .f32 0x3F800000#32)) (scores_apply UN VN l i j).symm)
  show Cert.Spec.score (fun k => UN (ix2 i k)) (fun k => VN (ix2 j k))
      (shapeCast Cert.KernelIdeal.S1x4096 l Cert.KernelIdeal.Facts₀.shapeCasts_S4096_S1x4096 (ix2 (0 : Fin 1) j)) = _
  rw [shapeCast_a_1a_apply]
  rfl

/-- The kernel program's result function is the reference's. -/
theorem result_eq (I : IVec Cert.KernelIdeal.S16384x2 32) (a0 a1 : IVec Cert.KernelIdeal.S4096x4 32) (a2 : IVec Cert.KernelIdeal.S4096 32)
    (a3 a4 : FVec Ideal Cert.KernelIdeal.S4x100000x64 .f32) (a5 : FVec Ideal Cert.KernelIdeal.S100000 .f32)
    (a6 : FVec Ideal Cert.KernelIdeal.S256x256 .f32) (a7 : FVec Ideal Cert.KernelIdeal.S256 .f32)
    (a8 : FVec Ideal Cert.KernelIdeal.S256x128 .f32) (a9 : FVec Ideal Cert.KernelIdeal.S128 .f32)
    (a10 : FVec Ideal Cert.KernelIdeal.S256x256 .f32) (a11 : FVec Ideal Cert.KernelIdeal.S256 .f32)
    (a12 : FVec Ideal Cert.KernelIdeal.S256x128 .f32) (a13 : FVec Ideal Cert.KernelIdeal.S128 .f32) :
    Cert.KernelIdeal.Whole.pick I
        (Cert.Spec.scores
          (Cert.Spec.towers (Cert.KernelIdeal.Whole.embed a3 a0) a6 a7 a8 a9)
          (Cert.Spec.towers (Cert.KernelIdeal.Whole.embed a4 a1) a10 a11 a12 a13)
          (Cert.KernelIdeal.Whole.logw a5 a2))
      = Cert.ReferenceIdeal.Stages.out (F := Ideal) I a0 a1 a2 a3 a4 a5 a6 a7 a8 a9 a10 a11 a12 a13 := by
  unfold Cert.ReferenceIdeal.Stages.out
  rw [unit_mlp_eq, unit_mlp_eq, ← embed_eq, ← embed_eq, logw_eq]
  exact pick_eq_fin I _ _ _

end Cert.Bridge

end
-- ==== Proof.Pairs.lean ====
/-
  The table of (row, column) pairs.

  Both programs build the table the final look-up uses from index ramps alone: row i paired with columns i, i+1, i+2, i+3
  taken modulo 4096, by the same host operations in the same order.  Neither table reads an argument or anything a launch
  wrote, so evaluating each program's operations gives one closed term, the same for both.
-/
import proofs.«132451_j36069135352387_1_alg».proof.Proof.Whole
import proofs.«132451_j36069135352387_1_alg».proof.Proof.RefRun
import proofs.«132451_j36069135352387_1_alg».proof.Proof.LibAfterResultsCat

set_option maxRecDepth 16384

noncomputable section

namespace Cert.Bridge

open Idealize.ShloMosaic Idealize.ShloMosaic.TcCoe Idealize.SL.Sem Idealize.ShloMosaic.StableHlo

theorem pairs_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (V : Valuation Cert.ReferenceIdeal.τ Cert.ReferenceIdeal.sig (Elt Ideal)) :
    StableHlo.after (Cert.ReferenceIdeal.RefRun.ops (F := Ideal)) V (Proc.devRef .tc Cert.ReferenceIdeal.main_v87)
      = Cert.KernelIdeal.Whole.pairs m ρ c := by
  unfold Cert.KernelIdeal.Whole.pairs
  unfold Cert.ReferenceIdeal.RefRun.ops
  simp only [Cert.ReferenceIdeal.RefRun.after_append (F := Ideal)]
  rw [Cert.ReferenceIdeal.RefRun.w11_keep (F := Ideal) _ _ (by decide)]
  generalize StableHlo.after (Cert.ReferenceIdeal.RefRun.w9 (F := Ideal)) _ = X
  show StableHlo.after (Cert.ReferenceIdeal.RefRun.w10c (F := Ideal)) (StableHlo.after (Cert.ReferenceIdeal.RefRun.w10b (F := Ideal)) (StableHlo.after (Cert.ReferenceIdeal.RefRun.w10a (F := Ideal)) X))
      (Proc.devRef .tc Cert.ReferenceIdeal.main_v87)
    = StableHlo.after Cert.KernelIdeal.Gen.hostOps3_2 (StableHlo.after Cert.KernelIdeal.Gen.hostOps3_1 (StableHlo.after Cert.KernelIdeal.Gen.hostOps3
        (Cert.KernelIdeal.Gen.W5 m ρ c))) (Proc.devRef .tc Cert.KernelIdeal.main_v56)
  unfold Cert.ReferenceIdeal.RefRun.w10a Cert.ReferenceIdeal.RefRun.w10b Cert.ReferenceIdeal.RefRun.w10c
  after_results_cat
  after_results_strip
  rfl

end Cert.Bridge

end
-- ==== Proof.lean ====
/-
  The certificate: a two-tower recommender's in-batch scores, a tiled kernel program against its plain reference.

  Each program embeds 4096 users and 4096 items (four gathered feature rows of 64 entries each), runs every row through a
  two-layer tower, relu after each layer, and divides it by the larger of its Euclidean norm and 1e-8; scores every user
  against every item by the inner product minus the logarithm of the item's sampling weight; and returns, for user i, the
  scores against items i, i+1, i+2, i+3 modulo 4096, divided by the temperature one.

  The kernel program does the towers and the score matrix in three grid launches over row and column blocks, feeding the
  matrix unit rounded operands; on the extended reals a change of float format is the identity and a matrix product is its
  sum of products whatever the tiling, so each launch's output array is one function of its whole input arrays, row by row.
  The reference does the same arithmetic with whole-array host operations.  The two results are then one function of the
  arguments: the gathers are the same operations, the towers and scores agree entry by entry, and the division by one passes
  through the final look-up.  No entry needs to be finite: nothing is distributed or cancelled, sums are only regrouped.
  The sanctioned idealization rewrote no operation, so `preserves` has nothing to state.
-/
import proofs.«132451_j36069135352387_1_alg».proof.Defs
import proofs.«132451_j36069135352387_1_alg».proof.Proof.Gen.Kernel
import proofs.«132451_j36069135352387_1_alg».proof.Proof.Gen.Kernel.Skeleton
import proofs.«132451_j36069135352387_1_alg».proof.Proof.Gen.Kernel.Launch
import proofs.«132451_j36069135352387_1_alg».proof.Proof.Gen.Kernel.Points
import proofs.«132451_j36069135352387_1_alg».proof.Proof.Gen.Kernel.Frame
import proofs.«132451_j36069135352387_1_alg».proof.Proof.Gen.KernelIdeal
import proofs.«132451_j36069135352387_1_alg».proof.Proof.Gen.KernelIdeal.Skeleton
import proofs.«132451_j36069135352387_1_alg».proof.Proof.Gen.KernelIdeal.Launch
import proofs.«132451_j36069135352387_1_alg».proof.Proof.Gen.KernelIdeal.Points
import proofs.«132451_j36069135352387_1_alg».proof.Proof.Gen.KernelIdeal.Frame
import proofs.«132451_j36069135352387_1_alg».proof.Proof.Gen.ReferenceIdeal
import proofs.«132451_j36069135352387_1_alg».proof.Proof.Gen.Pre_finite_inputs
import proofs.«132451_j36069135352387_1_alg».proof.Proof.KernelRun
import proofs.«132451_j36069135352387_1_alg».proof.Proof.Whole
import proofs.«132451_j36069135352387_1_alg».proof.Proof.RefRun
import proofs.«132451_j36069135352387_1_alg».proof.Proof.Bridge
import proofs.«132451_j36069135352387_1_alg».proof.Proof.Pairs
import Idealize.ShloMosaic.Adequacy
import Idealize.ShloMosaic.Init

noncomputable section

namespace Cert.Proof

open Idealize.ShloMosaic Idealize.SL.Sem

/-- The word-level kernel program terminates, nothing faulting, its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both idealized programs end with the picked scores: the kernel program's fold
    leaves them in its result array, the reference's run leaves its composed stages there, and the two are one function. -/
theorem algebraic : Cert.algebraic_KernelIdeal_ReferenceIdeal := by
  intro m ρ m' ρ' _ hagree
  refine ⟨fun c => Cert.KernelIdeal.Whole.pick (Cert.KernelIdeal.Whole.pairs m ρ c) (Cert.KernelIdeal.Whole.scoreMat m c), ?_, ?_⟩
  · exact (θ_run Cert.KernelIdeal.defs _ _).mono
      (fun r h c => ⟨(h c).1.trans (Cert.KernelIdeal.Whole.W8_v58 m ρ c), (h c).2⟩)
      (Cert.KernelIdeal.RunValue.run_result m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13⟩ := hagree c
    rw [e0, e1, e2, e3, e4, e5, e6, e7, e8, e9, e10, e11, e12, e13, Cert.Bridge.pairs_eq m ρ c]
    unfold Cert.KernelIdeal.Whole.scoreMat
    exact (Cert.Bridge.result_eq _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
